-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S100000 : Shape := ⟨1, ![100000]⟩
abbrev S2x6400000 : Shape := ⟨2, ![2, 6400000]⟩
abbrev S3 : Shape := ⟨1, ![3]⟩
abbrev S6400000x3 : Shape := ⟨2, ![6400000, 3]⟩
abbrev S1 : Shape := ⟨1, ![1]⟩
abbrev S4x1 : Shape := ⟨2, ![4, 1]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3 : S_.BroadcastsInDim S3 (![] : Fin 0 → Fin S3.rank)
  reducesTo_S3_S_d0 : S3.ReducesTo [0] S_
  bcast_S_S6400000x3 : S_.BroadcastsInDim S6400000x3 (![] : Fin 0 → Fin S6400000x3.rank)
  reducesTo_S6400000x3_S_d0_1 : S6400000x3.ReducesTo [0, 1] S_
  bcast_S_S1 : S_.BroadcastsInDim S1 (![] : Fin 0 → Fin S1.rank)
  reducesTo_S1_S_d0 : S1.ReducesTo [0] S_
  bcast_S_S4x1 : S_.BroadcastsInDim S4x1 (![] : Fin 0 → Fin S4x1.rank)
  reducesTo_S4x1_S_d0_1 : S4x1.ReducesTo [0, 1] S_

variable [Facts]

def fn_part2 {F : FTy → Type} [FloatOps F] (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg6 : FVec F S1 .f32) (main_arg7 : FVec F S4x1 .f32) (main_arg8 : FVec F S4x1 .f32) (main_arg9 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S4x1 .f32 := Host.absf main_arg7
  let main_cst_8 : FVec F S_ .f32 := constant S_ .f32 0x7F800000#32
  let main_v25 : FVec F S4x1 .f32 := broadcastInDim S4x1 ![] bcast_S_S4x1 main_cst_8
  let main_v26 : IVec S4x1 1 := cmpf .olt main_v24 main_v25
  let main_c_9 : IVec S_ 1 := constantI S_ 1 1#1
  let main_v27 : IVec S_ 1 := (fun x v => Host.reduce IntOp.andi x v reducesTo_S4x1_S_d0_1 h_S_) main_v26 main_c_9
  let main_v28 : IVec S_ 1 := andi main_v23 main_v27
  let main_v29 : FVec F S4x1 .f32 := Host.absf main_arg8
  let main_cst_10 : FVec F S_ .f32 := constant S_ .f32 0x7F800000#32
  let main_v30 : FVec F S4x1 .f32 := broadcastInDim S4x1 ![] bcast_S_S4x1 main_cst_10
  let main_v31 : IVec S4x1 1 := cmpf .olt main_v29 main_v30
  let main_c_11 : IVec S_ 1 := constantI S_ 1 1#1
  let main_v32 : IVec S_ 1 := (fun x v => Host.reduce IntOp.andi x v reducesTo_S4x1_S_d0_1 h_S_) main_v31 main_c_11
  let main_v33 : IVec S_ 1 := andi main_v28 main_v32
  fn_part2 (F := F) main_arg9 main_v33

def fn {F : FTy → Type} [FloatOps F] (main_arg0 : FVec F S100000x3 .f32) (main_arg1 : IVec S100000 32) (main_arg2 : IVec S2x6400000 32) (main_arg3 : FVec F S3 .f32) (main_arg4 : FVec F S6400000x3 .f32) (main_arg5 : FVec F S1 .f32) (main_arg6 : FVec F S1 .f32) (main_arg7 : FVec F S4x1 .f32) (main_arg8 : FVec F S4x1 .f32) (main_arg9 : FVec F S1 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3 .f32 := Host.absf main_arg3
  let main_cst_0 : FVec F S_ .f32 := constant S_ .f32 0x7F800000#32
  let main_v5 : FVec F S3 .f32 := broadcastInDim S3 ![] bcast_S_S3 main_cst_0
  let main_v6 : IVec S3 1 := cmpf .olt main_v4 main_v5
  let main_c_1 : IVec S_ 1 := constantI S_ 1 1#1
  let main_v7 : IVec S_ 1 := (fun x v => Host.reduce IntOp.andi x v reducesTo_S3_S_d0 h_S_) main_v6 main_c_1
  let main_v8 : IVec S_ 1 := andi main_v3 main_v7
  let main_v9 : FVec F S6400000x3 .f32 := Host.absf main_arg4
  let main_cst_2 : FVec F S_ .f32 := constant S_ .f32 0x7F800000#32
  let main_v10 : FVec F S6400000x3 .f32 := broadcastInDim S6400000x3 ![] bcast_S_S6400000x3 main_cst_2
  let main_v11 : IVec S6400000x3 1 := cmpf .olt main_v9 main_v10
  let main_c_3 : IVec S_ 1 := constantI S_ 1 1#1
  let main_v12 : IVec S_ 1 := (fun x v => Host.reduce IntOp.andi x v reducesTo_S6400000x3_S_d0_1 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg6 main_arg7 main_arg8 main_arg9 main_v13 main_v16
-- ==== Kernel.lean ====
abbrev S100000x3 : Shape := ⟨2, ![100000, 3]⟩
abbrev S100000 : Shape := ⟨1, ![100000]⟩
abbrev S2x6400000 : Shape := ⟨2, ![2, 6400000]⟩
abbrev S3 : Shape := ⟨1, ![3]⟩
abbrev S6400000x3 : Shape := ⟨2, ![6400000, 3]⟩
abbrev S1 : Shape := ⟨1, ![1]⟩
abbrev S4x1 : Shape := ⟨2, ![4, 1]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S50000x128 : Shape := ⟨2, ![50000, 128]⟩
abbrev S16x128 : Shape := ⟨2, ![16, 128]⟩
abbrev S5000x128 : Shape := ⟨2, ![5000, 128]⟩
abbrev S8x128 : Shape := ⟨2, ![8, 128]⟩
abbrev S1x1 : Shape := ⟨2, ![1, 1]⟩
abbrev S5000 : Shape := ⟨1, ![5000]⟩
abbrev S5000x1 : Shape := ⟨2, ![5000, 1]⟩

abbrev nBuf : Space → Nat
  | .hbm => 169
  | .vmem => 12
  | .smem => 0
  | _ => 0

abbrev hbmTy0_0 (i : Nat) : BufTy := match i % 128 with
  | 0 => ⟨S100000x3, .f32⟩
  | 1 => ⟨S100000, .i32⟩
  | 2 => ⟨S2x6400000, .i32⟩
  | 3 => ⟨S3, .f32⟩
  | 4 => ⟨S6400000x3, .f32⟩
  | 5 => ⟨S1, .f32⟩
  | 6 => ⟨S1, .f32⟩
  | 7 => ⟨S4x1, .f32⟩
  | 8 => ⟨S4x1, .f32⟩
  | 9 => ⟨S1, .f32⟩
  | 10 => ⟨S1x6400000, .i32⟩
  | 11 => ⟨S6400000, .i32⟩
  | 12 => ⟨S1x6400000, .i32⟩
  | 13 => ⟨S6400000, .i32⟩
  | 14 => ⟨S100000, .f32⟩
  | 15 => ⟨S_, .f32⟩
  | 16 => ⟨S1, .f32⟩
  | 17 => ⟨S1, .f32⟩
  | 18 => ⟨S1, .f32⟩
  | 19 => ⟨S1, .f32⟩
  | 20 => ⟨S1, .i1⟩
  | 21 => ⟨S1, .f32⟩
  | 22 => ⟨S1, .f32⟩
  | 23 => ⟨S1, .f32⟩
  | 24 => ⟨S1, .f32⟩
  | 25 => ⟨S1, .f32⟩
  | 26 => ⟨S1, .f32⟩
  | 27 => ⟨S1, .f32⟩
  | 28 => ⟨S1, .f32⟩
  | 29 => ⟨S_, .f32⟩
  | 30 => ⟨S1, .f32⟩
  | 31 => ⟨S1, .f32⟩
  | 32 => ⟨S1, .f32⟩
  | 33 => ⟨S1, .f32⟩
  | 34 => ⟨S1, .i1⟩
  | 35 => ⟨S1, .f32⟩
  | 36 => ⟨S1, .f32⟩
  | 37 => ⟨S1, .f32⟩
  | 38 => ⟨S1, .f32⟩
  | 39 => ⟨S1, .f32⟩
  | 40 => ⟨S1, .f32⟩
  | 41 => ⟨S1, .f32⟩
  | 42 => ⟨S1, .f32⟩
  | 43 => ⟨S_, .f32⟩
  | 44 => ⟨S4x1, .f32⟩
  | 45 => ⟨S4x1, .f32⟩
  | 46 => ⟨S4x1, .f32⟩
  | 47 => ⟨S4x1, .f32⟩
  | 48 => ⟨S4x1, .i1⟩
  | 49 => ⟨S4x1, .f32⟩
  | 50 => ⟨S4x1, .f32⟩
  | 51 => ⟨S4x1, .f32⟩
  | 52 => ⟨S4x1, .f32⟩
  | 53 => ⟨S4x1, .f32⟩
  | 54 => ⟨S4x1, .f32⟩
  | 55 => ⟨S4x1, .f32⟩
  | 56 => ⟨S4x1, .f32⟩
  | 57 => ⟨S_, .f32⟩
  | 58 => ⟨S4x1, .f32⟩
  | 59 => ⟨S4x1, .f32⟩
  | 60 => ⟨S4x1, .f32⟩
  | 61 => ⟨S4x1, .f32⟩
  | 62 => ⟨S4x1, .i1⟩
  | 63 => ⟨S4x1, .f32⟩
  | 64 => ⟨S4x1, .f32⟩
  | 65 => ⟨S4x1, .f32⟩
  | 66 => ⟨S4x1, .f32⟩
  | 67 => ⟨S4x1, .f32⟩
  | 68 => ⟨S4x1, .f32⟩
  | 69 => ⟨S4x1, .f32⟩
  | 70 => ⟨S4x1, .f32⟩
  | 71 => ⟨S_, .f32⟩
  | 72 => ⟨S1, .f32⟩
  | 73 => ⟨S1, .f32⟩
  | 74 => ⟨S1, .f32⟩
  | 75 => ⟨S1, .f32⟩
  | 76 => ⟨S1, .i1⟩
  | 77 => ⟨S1, .f32⟩
  | 78 => ⟨S1, .f32⟩
  | 79 => ⟨S1, .f32⟩
  | 80 => ⟨S1, .f32⟩
  | 81 => ⟨S1, .f32⟩
  | 82 => ⟨S1, .f32⟩
  | 83 => ⟨S1, .f32⟩
  | 84 => ⟨S1, .f32⟩
  | 85 => ⟨S100000, .f32⟩
  | 86 => ⟨S100000, .f32⟩
  | 87 => ⟨S_, .i32⟩
  | 88 => ⟨S6400000, .i32⟩
  | 89 => ⟨S6400000, .i1⟩
  | 90 => ⟨S_, .i32⟩
  | 91 => ⟨S6400000, .i32⟩
  | 92 => ⟨S6400000, .i32⟩
  | 93 => ⟨S6400000, .i32⟩
  | 94 => ⟨S6400000x1, .i32⟩
  | 95 => ⟨S6400000, .f32⟩
  | 96 => ⟨S_, .i32⟩
  | 97 => ⟨S6400000, .i32⟩
  | 98 => ⟨S6400000, .i1⟩
  | 99 => ⟨S_, .i32⟩
  | 100 => ⟨S6400000, .i32⟩
  | 101 => ⟨S6400000, .i32⟩
  | 102 => ⟨S6400000, .i32⟩
  | 103 => ⟨S6400000x1, .i32⟩
  | 104 => ⟨S6400000, .f32⟩
  | 105 => ⟨S6400000, .f32⟩
  | 106 => ⟨S6400000, .i1⟩
  | 107 => ⟨S_, .i32⟩
  | 108 => ⟨S6400000, .i32⟩
  | 109 => ⟨S6400000, .i1⟩
  | 110 => ⟨S_, .i32⟩
  | 111 => ⟨S6400000, .i32⟩
  | 112 => ⟨S6400000, .i32⟩
  | 113 => ⟨S6400000, .i32⟩
  | 114 => ⟨S6400000x1, .i32⟩
  | 115 => ⟨S6400000, .f32⟩
  | 116 => ⟨S_, .i32⟩
  | 117 => ⟨S6400000, .i32⟩
  | 118 => ⟨S6400000, .i1⟩
  | 119 => ⟨S_, .i32⟩
  | 120 => ⟨S6400000, .i32⟩
  | 121 => ⟨S6400000, .i32⟩
  | 122 => ⟨S6400000, .i32⟩
  | 123 => ⟨S6400000x1, .i32⟩
  | 124 => ⟨S6400000, .f32⟩
  | 125 => ⟨S6400000, .f32⟩
  | 126 => ⟨S_, .f32⟩
  | 127 => ⟨S_, .f32⟩
  | _ => ⟨S100000x3, .f32⟩

abbrev hbmTy0_1 (i : Nat) : BufTy := match i % 128 with
  | 0 => ⟨S6400000, .f32⟩
  | 1 => ⟨S6400000, .f32⟩
  | 2 => ⟨S_, .i32⟩
  | 3 => ⟨S6400000, .i32⟩
  | 4 => ⟨S6400000, .i1⟩
  | 5 => ⟨S_, .i32⟩
  | 6 => ⟨S6400000, .i32⟩
  | 7 => ⟨S6400000, .i32⟩
  | 8 => ⟨S6400000, .i32⟩
  | 9 => ⟨S6400000x1, .i32⟩
  | 10 => ⟨S6400000x3, .f32⟩
  | 11 => ⟨S_, .i32⟩
  | 12 => ⟨S6400000, .i32⟩
  | 13 => ⟨S6400000, .i1⟩
  | 14 => ⟨S_, .i32⟩
  | 15 => ⟨S6400000, .i32⟩
  | 16 => ⟨S6400000, .i32⟩
  | 17 => ⟨S6400000, .i32⟩
  | 18 => ⟨S6400000x1, .i32⟩
  | 19 => ⟨S6400000x3, .f32⟩
  | 20 => ⟨S6400000x3, .f32⟩
  | 21 => ⟨S6400000x3, .f32⟩
  | 22 => ⟨S_, .f32⟩
  | 23 => ⟨S6400000, .f32⟩
  | 24 => ⟨S6400000, .f32⟩
  | 25 => ⟨S50000x128, .f32⟩
  | 26 => ⟨S50000x128, .f32⟩
  | 27 => ⟨S50000x128, .f32⟩
  | 28 => ⟨S16x128, .f32⟩
  | 29 => ⟨S_, .f32⟩
  | 30 => ⟨S_, .f32⟩
  | 31 => ⟨S_, .f32⟩
  | 32 => ⟨S1, .f32⟩
  | 33 => ⟨S1, .f32⟩
  | 34 => ⟨S_, .f32⟩
  | 35 => ⟨S1, .f32⟩
  | 36 => ⟨S1, .f32⟩
  | 37 => ⟨S1, .f32⟩
  | 38 => ⟨S1, .f32⟩
  | 39 => ⟨S_, .f32⟩
  | 40 => ⟨S_, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S1, .f32⟩
  | .local _ .vmem, ⟨7, _⟩ => ⟨S4x1, .f32⟩
  | .local _ .vmem, ⟨8, _⟩ => ⟨S4x1, .f32⟩
  | .local _ .vmem, ⟨9, _⟩ => ⟨S8x128, .f32⟩
  | .local _ .vmem, ⟨10, _⟩ => ⟨S8x128, .f32⟩
  | .local _ .vmem, ⟨11, _⟩ => ⟨S1x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v5 : Ref sig .tc := ⟨.hbm, 28, rfl⟩
abbrev main_call1_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_v6 : Ref sig .tc := ⟨.hbm, 42, rfl⟩
abbrev main_call2_cst : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_v7 : Ref sig .tc := ⟨.hbm, 56, rfl⟩
abbrev main_call3_cst : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_v5 : Ref sig .tc := ⟨.hbm, 63, rfl⟩
abbrev main_call3_v6 : Ref sig .tc := ⟨.hbm, 64, rfl⟩
abbrev main_call3_v7 : Ref sig .tc := ⟨.hbm, 65, rfl⟩
abbrev main_call3_v8 : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_v8 : Ref sig .tc := ⟨.hbm, 70, rfl⟩
abbrev main_call4_cst : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_call4_v5 : Ref sig .tc := ⟨.hbm, 77, rfl⟩
abbrev main_call4_v6 : Ref sig .tc := ⟨.hbm, 78, rfl⟩
abbrev main_call4_v7 : Ref sig .tc := ⟨.hbm, 79, rfl⟩
abbrev main_call4_v8 : Ref sig .tc := ⟨.hbm, 80, rfl⟩
abbrev main_call4_v9 : Ref sig .tc := ⟨.hbm, 81, rfl⟩
abbrev main_call4_v10 : Ref sig .tc := ⟨.hbm, 82, rfl⟩
abbrev main_call4_v11 : Ref sig .tc := ⟨.hbm, 83, rfl⟩
abbrev main_v9 : Ref sig .tc := ⟨.hbm, 84, rfl⟩
abbrev main_v10 : Ref sig .tc := ⟨.hbm, 85, rfl⟩
abbrev main_v11 : Ref sig .tc := ⟨.hbm, 86, rfl⟩
abbrev main_c : Ref sig .tc := ⟨.hbm, 87, rfl⟩
abbrev main_v12 : Ref sig .tc := ⟨.hbm, 88, rfl⟩
abbrev main_v13 : Ref sig .tc := ⟨.hbm, 89, rfl⟩
abbrev main_c_0 : Ref sig .tc := ⟨.hbm, 90, rfl⟩
abbrev main_v14 : Ref sig .tc := ⟨.hbm, 91, rfl⟩
abbrev main_v15 : Ref sig .tc := ⟨.hbm, 92, rfl⟩
abbrev main_v16 : Ref sig .tc := ⟨.hbm, 93, rfl⟩
abbrev main_v17 : Ref sig .tc := ⟨.hbm, 94, rfl⟩
abbrev main_v18 : Ref sig .tc := ⟨.hbm, 95, rfl⟩
abbrev main_c_1 : Ref sig .tc := ⟨.hbm, 96, rfl⟩
abbrev main_v19 : Ref sig .tc := ⟨.hbm, 97, rfl⟩
abbrev main_v20 : Ref sig .tc := ⟨.hbm, 98, rfl⟩
abbrev main_c_2 : Ref sig .tc := ⟨.hbm, 99, rfl⟩
abbrev main_v21 : Ref sig .tc := ⟨.hbm, 100, rfl⟩
abbrev main_v22 : Ref sig .tc := ⟨.hbm, 101, rfl⟩
abbrev main_v23 : Ref sig .tc := ⟨.hbm, 102, rfl⟩
abbrev main_v24 : Ref sig .tc := ⟨.hbm, 103, rfl⟩
abbrev main_v25 : Ref sig .tc := ⟨.hbm, 104, rfl⟩
abbrev main_v26 : Ref sig .tc := ⟨.hbm, 105, rfl⟩
abbrev main_v27 : Ref sig .tc := ⟨.hbm, 106, rfl⟩
abbrev main_c_3 : Ref sig .tc := ⟨.hbm, 107, rfl⟩
abbrev main_v28 : Ref sig .tc := ⟨.hbm, 108, rfl⟩
abbrev main_v29 : Ref sig .tc := ⟨.hbm, 109, rfl⟩
abbrev main_c_4 : Ref sig .tc := ⟨.hbm, 110, rfl⟩
abbrev main_v30 : Ref sig .tc := ⟨.hbm, 111, rfl⟩
abbrev main_v31 : Ref sig .tc := ⟨.hbm, 112, rfl⟩
abbrev main_v32 : Ref sig .tc := ⟨.hbm, 113, rfl⟩
abbrev main_v33 : Ref sig .tc := ⟨.hbm, 114, rfl⟩
abbrev main_v34 : Ref sig .tc := ⟨.hbm, 115, rfl⟩
abbrev main_c_5 : Ref sig .tc := ⟨.hbm, 116, rfl⟩
abbrev main_v35 : Ref sig .tc := ⟨.hbm, 117, rfl⟩
abbrev main_v36 : Ref sig .tc := ⟨.hbm, 118, rfl⟩
abbrev main_c_6 : Ref sig .tc := ⟨.hbm, 119, rfl⟩
abbrev main_v37 : Ref sig .tc := ⟨.hbm, 120, rfl⟩
abbrev main_v38 : Ref sig .tc := ⟨.hbm, 121, rfl⟩
abbrev main_v39 : Ref sig .tc := ⟨.hbm, 122, rfl⟩
abbrev main_v40 : Ref sig .tc := ⟨.hbm, 123, rfl⟩
abbrev main_v41 : Ref sig .tc := ⟨.hbm, 124, rfl⟩
abbrev main_v42 : Ref sig .tc := ⟨.hbm, 125, rfl⟩
abbrev main_cst : Ref sig .tc := ⟨.hbm, 126, rfl⟩
abbrev main_call5_v0 : Ref sig .tc := ⟨.hbm, 127, rfl⟩
abbrev main_call5_v1 : Ref sig .tc := ⟨.hbm, 128, rfl⟩
abbrev main_v43 : Ref sig .tc := ⟨.hbm, 129, rfl⟩
abbrev main_c_7 : Ref sig .tc := ⟨.hbm, 130, rfl⟩
abbrev main_v44 : Ref sig .tc := ⟨.hbm, 131, rfl⟩
abbrev main_v45 : Ref sig .tc := ⟨.hbm, 132, rfl⟩
abbrev main_c_8 : Ref sig .tc := ⟨.hbm, 133, rfl⟩
abbrev main_v46 : Ref sig .tc := ⟨.hbm, 134, rfl⟩
abbrev main_v47 : Ref sig .tc := ⟨.hbm, 135, rfl⟩
abbrev main_v48 : Ref sig .tc := ⟨.hbm, 136, rfl⟩
abbrev main_v49 : Ref sig .tc := ⟨.hbm, 137, rfl⟩
abbrev main_v50 : Ref sig .tc := ⟨.hbm, 138, rfl⟩
abbrev main_c_9 : Ref sig .tc := ⟨.hbm, 139, rfl⟩
abbrev main_v51 : Ref sig .tc := ⟨.hbm, 140, rfl⟩
abbrev main_v52 : Ref sig .tc := ⟨.hbm, 141, rfl⟩
abbrev main_c_10 : Ref sig .tc := ⟨.hbm, 142, rfl⟩
abbrev main_v53 : Ref sig .tc := ⟨.hbm, 143, rfl⟩
abbrev main_v54 : Ref sig .tc := ⟨.hbm, 144, rfl⟩
abbrev main_v55 : Ref sig .tc := ⟨.hbm, 145, rfl⟩
abbrev main_v56 : Ref sig .tc := ⟨.hbm, 146, rfl⟩
abbrev main_v57 : Ref sig .tc := ⟨.hbm, 147, rfl⟩
abbrev main_v58 : Ref sig .tc := ⟨.hbm, 148, rfl⟩
abbrev main_v59 : Ref sig .tc := ⟨.hbm, 149, rfl⟩
abbrev main_cst_11 : Ref sig .tc := ⟨.hbm, 150, rfl⟩
abbrev main_v60 : Ref sig .tc := ⟨.hbm, 151, rfl⟩
abbrev main_v61 : Ref sig .tc := ⟨.hbm, 152, rfl⟩
abbrev main_v62 : Ref sig .tc := ⟨.hbm, 153, rfl⟩
abbrev main_v63 : Ref sig .tc := ⟨.hbm, 154, rfl⟩
abbrev main_v64 : Ref sig .tc := ⟨.hbm, 155, rfl⟩
abbrev main_v65 : Ref sig .tc := ⟨.hbm, 156, rfl⟩
abbrev main_cst_12 : Ref sig .tc := ⟨.hbm, 157, rfl⟩
abbrev main_v66 : Ref sig .tc := ⟨.hbm, 158, rfl⟩
abbrev main_cst_13 : Ref sig .tc := ⟨.hbm, 159, rfl⟩
abbrev main_v67 : Ref sig .tc := ⟨.hbm, 160, rfl⟩
abbrev main_v68 : Ref sig .tc := ⟨.hbm, 161, rfl⟩
abbrev main_cst_14 : Ref sig .tc := ⟨.hbm, 162, rfl⟩
abbrev main_v69 : Ref sig .tc := ⟨.hbm, 163, rfl⟩
abbrev main_v70 : Ref sig .tc := ⟨.hbm, 164, rfl⟩
abbrev main_v71 : Ref sig .tc := ⟨.hbm, 165, rfl⟩
abbrev main_v72 : Ref sig .tc := ⟨.hbm, 166, rfl⟩
abbrev main_cst_15 : Ref sig .tc := ⟨.hbm, 167, rfl⟩
abbrev main_v73 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg1 : BitVec 32 := BitVec.ofNat 32 (i 1).val
  let c4_i32 : BitVec 32 := 4#32
  let v93 : BitVec 1 := Scalar.cmpi .eq arg1 c4_i32
  let v94 : BitVec 32 := Scalar.extui v93
  let c0_i32_34 : BitVec 32 := 0#32
  let v95 : BitVec 1 := Scalar.cmpi .ne v94 c0_i32_34
  v95

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S1 : S_.BroadcastsInDim S1 (![] : Fin 0 → Fin S1.rank)
  bcast_S_S4x1 : S_.BroadcastsInDim S4x1 (![] : Fin 0 → Fin S4x1.rank)
  bcast_S1_S100000_0 : S1.BroadcastsInDim S100000 (![0] : Fin 1 → Fin S100000.rank)
  bcast_S_S6400000 : S_.BroadcastsInDim S6400000 (![] : Fin 0 → Fin S6400000.rank)
  bcast_S6400000_S6400000x1_0 : S6400000.BroadcastsInDim S6400000x1 (![0] : Fin 1 → Fin S6400000x1.rank)
  reducesTo_S6400000x3_S6400000_d1 : S6400000x3.ReducesTo [1] S6400000
  h_S_ : 0 < S_.numel
  shapeCasts_S6400000_S50000x128 : S6400000.ShapeCasts S50000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1_S1_0 : ∀ a, (![0] : Fin 1 → Nat) a + S1.size a ≤ S1.size a
  h_S1 : 0 < S1.numel
  shapeCasts_S1_S1 : S1.ShapeCasts S1
  shapeCasts_S1_S1x1 : S1.ShapeCasts S1x1
  broadcasts_S1x1_S5000x128 : S1x1.Broadcasts S5000x128
  inb_S4x1_S1x1_0_0 : ∀ a, (![0, 0] : Fin 2 → Nat) a + S1x1.size a ≤ S4x1.size a
  shapeCasts_S1x1_S1 : S1x1.ShapeCasts S1
  inb_S4x1_S1x1_1_0 : ∀ a, (![1, 0] : Fin 2 → Nat) a + S1x1.size a ≤ S4x1.size a
  inb_S4x1_S1x1_2_0 : ∀ a, (![2, 0] : Fin 2 → Nat) a + S1x1.size a ≤ S4x1.size a
  inb_S4x1_S1x1_3_0 : ∀ a, (![3, 0] : Fin 2 → Nat) a + S1x1.size a ≤ S4x1.size a
  reduces_S5000x128_S5000 : S5000x128.Reduces [1] S5000
  shapeCasts_S5000_S5000x1 : S5000.ShapeCasts S5000x1
  reduces_S5000x1_S1 : S5000x1.Reduces [0] S1
  iota_S8x128_d0_w32 : S8x128.Iotas .tc 32 [0]
  iota_S8x128_d1_w32 : S8x128.Iotas .tc 32 [1]
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S16x128_S_d0_1 : S16x128.ReducesTo [0, 1] S_
  reducesTo_S1_S_d0 : S1.ReducesTo [0] S_
  gather_S100000_S6400000x1_S6400000_n_0_n_n_0_1_1_wf : GatherDims.WF S100000 S6400000x1 S6400000 [] [0] [] [0] [] 1 ![1]
  gather_S100000x3_S6400000x1_S6400000x3_1_0_n_n_0_1_13_wf : GatherDims.WF S100000x3 S6400000x1 S6400000x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1.size a ≤ S4x1.size a
  hwx0_4 : ∀ i : grid0.Coords, EltTy.bits .f32 = 32 ∨ (Rect.block (s := S4x1) S4x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1.size a ≤ S4x1.size a
  hwx0_5 : ∀ i : grid0.Coords, EltTy.bits .f32 = 32 ∨ (Rect.block (s := S4x1) S4x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S16x128.size a
  hwx0_6 : ∀ i : grid0.Coords, EltTy.bits .f32 = 32 ∨ (Rect.block (s := S16x128) S8x128.size (cc0_transform_6 i) (hinb0_6 i)).WholeWords (EltTy.packing .f32)

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def gather_S100000x3_S6400000x1_S6400000x3_1_0_n_n_0_1_13 : GatherDims S100000x3 S6400000x1 S6400000x3 where
  offsetDims := [1]
  collapsedSliceDims := [0]
  operandBatchingDims := []
  startIndicesBatchingDims := []
  startIndexMap := [0]
  indexVectorDim := 1
  sliceSizes := ![1, 3]
  wf := gather_S100000x3_S6400000x1_S6400000x3_1_0_n_n_0_1_13_wf

abbrev win0_0 : Pipeline.Window sig grid0 :=
  Pipeline.Window.ofSpec (Memref.whole main_v62) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v63) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v64) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S4x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S4x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v65) S8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S100000x3 : Shape := ⟨2, ![100000, 3]⟩
abbrev S100000 : Shape := ⟨1, ![100000]⟩
abbrev S2x6400000 : Shape := ⟨2, ![2, 6400000]⟩
abbrev S3 : Shape := ⟨1, ![3]⟩
abbrev S6400000x3 : Shape := ⟨2, ![6400000, 3]⟩
abbrev S1 : Shape := ⟨1, ![1]⟩
abbrev S4x1 : Shape := ⟨2, ![4, 1]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S4x6400000 : Shape := ⟨2, ![4, 6400000]⟩

abbrev nBuf : Space → Nat
  | .hbm => 184
  | .vmem => 0
  | .smem => 0
  | _ => 0

abbrev hbmTy0_0 (i : Nat) : BufTy := match i % 128 with
  | 0 => ⟨S100000x3, .f32⟩
  | 1 => ⟨S100000, .i32⟩
  | 2 => ⟨S2x6400000, .i32⟩
  | 3 => ⟨S3, .f32⟩
  | 4 => ⟨S6400000x3, .f32⟩
  | 5 => ⟨S1, .f32⟩
  | 6 => ⟨S1, .f32⟩
  | 7 => ⟨S4x1, .f32⟩
  | 8 => ⟨S4x1, .f32⟩
  | 9 => ⟨S1, .f32⟩
  | 10 => ⟨S1x6400000, .i32⟩
  | 11 => ⟨S6400000, .i32⟩
  | 12 => ⟨S1x6400000, .i32⟩
  | 13 => ⟨S6400000, .i32⟩
  | 14 => ⟨S100000, .f32⟩
  | 15 => ⟨S_, .i32⟩
  | 16 => ⟨S6400000, .i32⟩
  | 17 => ⟨S6400000, .i1⟩
  | 18 => ⟨S_, .i32⟩
  | 19 => ⟨S6400000, .i32⟩
  | 20 => ⟨S6400000, .i32⟩
  | 21 => ⟨S6400000, .i32⟩
  | 22 => ⟨S6400000x1, .i32⟩
  | 23 => ⟨S6400000, .f32⟩
  | 24 => ⟨S_, .i32⟩
  | 25 => ⟨S6400000, .i32⟩
  | 26 => ⟨S6400000, .i1⟩
  | 27 => ⟨S_, .i32⟩
  | 28 => ⟨S6400000, .i32⟩
  | 29 => ⟨S6400000, .i32⟩
  | 30 => ⟨S6400000, .i32⟩
  | 31 => ⟨S6400000x1, .i32⟩
  | 32 => ⟨S6400000, .f32⟩
  | 33 => ⟨S_, .i32⟩
  | 34 => ⟨S6400000, .i32⟩
  | 35 => ⟨S6400000, .i1⟩
  | 36 => ⟨S_, .i32⟩
  | 37 => ⟨S6400000, .i32⟩
  | 38 => ⟨S6400000, .i32⟩
  | 39 => ⟨S6400000, .i32⟩
  | 40 => ⟨S6400000x1, .i32⟩
  | 41 => ⟨S6400000x3, .f32⟩
  | 42 => ⟨S_, .i32⟩
  | 43 => ⟨S6400000, .i32⟩
  | 44 => ⟨S6400000, .i1⟩
  | 45 => ⟨S_, .i32⟩
  | 46 => ⟨S6400000, .i32⟩
  | 47 => ⟨S6400000, .i32⟩
  | 48 => ⟨S6400000, .i32⟩
  | 49 => ⟨S6400000x1, .i32⟩
  | 50 => ⟨S6400000x3, .f32⟩
  | 51 => ⟨S6400000x3, .f32⟩
  | 52 => ⟨S6400000x3, .f32⟩
  | 53 => ⟨S_, .f32⟩
  | 54 => ⟨S6400000, .f32⟩
  | 55 => ⟨S6400000, .f32⟩
  | 56 => ⟨S_, .f32⟩
  | 57 => ⟨S_, .f32⟩
  | 58 => ⟨S_, .f32⟩
  | 59 => ⟨S6400000, .f32⟩
  | 60 => ⟨S6400000, .f32⟩
  | 61 => ⟨S_, .f32⟩
  | 62 => ⟨S6400000, .f32⟩
  | 63 => ⟨S6400000, .f32⟩
  | 64 => ⟨S_, .f32⟩
  | 65 => ⟨S6400000, .f32⟩
  | 66 => ⟨S6400000, .f32⟩
  | 67 => ⟨S_, .f32⟩
  | 68 => ⟨S6400000, .f32⟩
  | 69 => ⟨S6400000, .f32⟩
  | 70 => ⟨S6400000, .f32⟩
  | 71 => ⟨S_, .f32⟩
  | 72 => ⟨S6400000, .f32⟩
  | 73 => ⟨S6400000, .f32⟩
  | 74 => ⟨S_, .f32⟩
  | 75 => ⟨S6400000, .f32⟩
  | 76 => ⟨S6400000, .f32⟩
  | 77 => ⟨S_, .f32⟩
  | 78 => ⟨S1, .f32⟩
  | 79 => ⟨S1, .f32⟩
  | 80 => ⟨S1, .f32⟩
  | 81 => ⟨S1, .f32⟩
  | 82 => ⟨S1, .i1⟩
  | 83 => ⟨S1, .f32⟩
  | 84 => ⟨S1, .f32⟩
  | 85 => ⟨S1, .f32⟩
  | 86 => ⟨S1, .f32⟩
  | 87 => ⟨S1, .f32⟩
  | 88 => ⟨S1, .f32⟩
  | 89 => ⟨S1, .f32⟩
  | 90 => ⟨S1, .f32⟩
  | 91 => ⟨S_, .f32⟩
  | 92 => ⟨S1, .f32⟩
  | 93 => ⟨S1, .f32⟩
  | 94 => ⟨S1, .f32⟩
  | 95 => ⟨S1, .f32⟩
  | 96 => ⟨S1, .i1⟩
  | 97 => ⟨S1, .f32⟩
  | 98 => ⟨S1, .f32⟩
  | 99 => ⟨S1, .f32⟩
  | 100 => ⟨S1, .f32⟩
  | 101 => ⟨S1, .f32⟩
  | 102 => ⟨S1, .f32⟩
  | 103 => ⟨S1, .f32⟩
  | 104 => ⟨S1, .f32⟩
  | 105 => ⟨S_, .f32⟩
  | 106 => ⟨S4x1, .f32⟩
  | 107 => ⟨S4x1, .f32⟩
  | 108 => ⟨S4x1, .f32⟩
  | 109 => ⟨S4x1, .f32⟩
  | 110 => ⟨S4x1, .i1⟩
  | 111 => ⟨S4x1, .f32⟩
  | 112 => ⟨S4x1, .f32⟩
  | 113 => ⟨S4x1, .f32⟩
  | 114 => ⟨S4x1, .f32⟩
  | 115 => ⟨S4x1, .f32⟩
  | 116 => ⟨S4x1, .f32⟩
  | 117 => ⟨S4x1, .f32⟩
  | 118 => ⟨S4x1, .f32⟩
  | 119 => ⟨S_, .f32⟩
  | 120 => ⟨S4x1, .f32⟩
  | 121 => ⟨S4x1, .f32⟩
  | 122 => ⟨S4x1, .f32⟩
  | 123 => ⟨S4x1, .f32⟩
  | 124 => ⟨S4x1, .i1⟩
  | 125 => ⟨S4x1, .f32⟩
  | 126 => ⟨S4x1, .f32⟩
  | 127 => ⟨S4x1, .f32⟩
  | _ => ⟨S100000x3, .f32⟩

abbrev hbmTy0_1 (i : Nat) : BufTy := match i % 128 with
  | 0 => ⟨S4x1, .f32⟩
  | 1 => ⟨S4x1, .f32⟩
  | 2 => ⟨S4x1, .f32⟩
  | 3 => ⟨S4x1, .f32⟩
  | 4 => ⟨S4x1, .f32⟩
  | 5 => ⟨S_, .f32⟩
  | 6 => ⟨S1, .f32⟩
  | 7 => ⟨S1, .f32⟩
  | 8 => ⟨S1, .f32⟩
  | 9 => ⟨S1, .f32⟩
  | 10 => ⟨S1, .i1⟩
  | 11 => ⟨S1, .f32⟩
  | 12 => ⟨S1, .f32⟩
  | 13 => ⟨S1, .f32⟩
  | 14 => ⟨S1, .f32⟩
  | 15 => ⟨S1, .f32⟩
  | 16 => ⟨S1, .f32⟩
  | 17 => ⟨S1, .f32⟩
  | 18 => ⟨S1, .f32⟩
  | 19 => ⟨S6400000, .f32⟩
  | 20 => ⟨S6400000, .f32⟩
  | 21 => ⟨S6400000, .f32⟩
  | 22 => ⟨S6400000, .f32⟩
  | 23 => ⟨S6400000, .f32⟩
  | 24 => ⟨S6400000, .f32⟩
  | 25 => ⟨S6400000, .f32⟩
  | 26 => ⟨S6400000, .f32⟩
  | 27 => ⟨S4x1, .f32⟩
  | 28 => ⟨S1x6400000, .f32⟩
  | 29 => ⟨S4x6400000, .f32⟩
  | 30 => ⟨S4x6400000, .f32⟩
  | 31 => ⟨S4x6400000, .f32⟩
  | 32 => ⟨S4x6400000, .f32⟩
  | 33 => ⟨S4x6400000, .f32⟩
  | 34 => ⟨S4x6400000, .f32⟩
  | 35 => ⟨S_, .f32⟩
  | 36 => ⟨S6400000, .f32⟩
  | 37 => ⟨S6400000, .f32⟩
  | 38 => ⟨S6400000, .f32⟩
  | 39 => ⟨S6400000, .f32⟩
  | 40 => ⟨S6400000, .f32⟩
  | 41 => ⟨S6400000, .i1⟩
  | 42 => ⟨S6400000, .f32⟩
  | 43 => ⟨S_, .f32⟩
  | 44 => ⟨S1, .f32⟩
  | 45 => ⟨S1, .f32⟩
  | 46 => ⟨S_, .f32⟩
  | 47 => ⟨S1, .f32⟩
  | 48 => ⟨S1, .f32⟩
  | 49 => ⟨S6400000, .f32⟩
  | 50 => ⟨S_, .f32⟩
  | 51 => ⟨S_, .f32⟩
  | 52 => ⟨S1, .f32⟩
  | 53 => ⟨S1, .f32⟩
  | 54 => ⟨S_, .f32⟩
  | 55 => ⟨S_, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_cst_8 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_v37 : Ref sig .tc := ⟨.hbm, 63, rfl⟩
abbrev main_cst_9 : Ref sig .tc := ⟨.hbm, 64, rfl⟩
abbrev main_v38 : Ref sig .tc := ⟨.hbm, 65, rfl⟩
abbrev main_v39 : Ref sig .tc := ⟨.hbm, 66, rfl⟩
abbrev main_cst_10 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_11 : Ref sig .tc := ⟨.hbm, 71, rfl⟩
abbrev main_v43 : Ref sig .tc := ⟨.hbm, 72, rfl⟩
abbrev main_v44 : Ref sig .tc := ⟨.hbm, 73, rfl⟩
abbrev main_cst_12 : Ref sig .tc := ⟨.hbm, 74, rfl⟩
abbrev main_v45 : Ref sig .tc := ⟨.hbm, 75, rfl⟩
abbrev main_v46 : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_v6 : Ref sig .tc := ⟨.hbm, 84, rfl⟩
abbrev main_call1_v7 : Ref sig .tc := ⟨.hbm, 85, rfl⟩
abbrev main_call1_v8 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_v47 : Ref sig .tc := ⟨.hbm, 90, rfl⟩
abbrev main_call2_cst : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_v48 : Ref sig .tc := ⟨.hbm, 104, rfl⟩
abbrev main_call3_cst : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_v5 : Ref sig .tc := ⟨.hbm, 111, rfl⟩
abbrev main_call3_v6 : Ref sig .tc := ⟨.hbm, 112, rfl⟩
abbrev main_call3_v7 : Ref sig .tc := ⟨.hbm, 113, rfl⟩
abbrev main_call3_v8 : Ref sig .tc := ⟨.hbm, 114, rfl⟩
abbrev main_call3_v9 : Ref sig .tc := ⟨.hbm, 115, rfl⟩
abbrev main_call3_v10 : Ref sig .tc := ⟨.hbm, 116, rfl⟩
abbrev main_call3_v11 : Ref sig .tc := ⟨.hbm, 117, rfl⟩
abbrev main_v49 : Ref sig .tc := ⟨.hbm, 118, rfl⟩
abbrev main_call4_cst : Ref sig .tc := ⟨.hbm, 119, rfl⟩
abbrev main_call4_v0 : Ref sig .tc := ⟨.hbm, 120, rfl⟩
abbrev main_call4_v1 : Ref sig .tc := ⟨.hbm, 121, rfl⟩
abbrev main_call4_v2 : Ref sig .tc := ⟨.hbm, 122, rfl⟩
abbrev main_call4_v3 : Ref sig .tc := ⟨.hbm, 123, rfl⟩
abbrev main_call4_v4 : Ref sig .tc := ⟨.hbm, 124, rfl⟩
abbrev main_call4_v5 : Ref sig .tc := ⟨.hbm, 125, rfl⟩
abbrev main_call4_v6 : Ref sig .tc := ⟨.hbm, 126, rfl⟩
abbrev main_call4_v7 : Ref sig .tc := ⟨.hbm, 127, rfl⟩
abbrev main_call4_v8 : Ref sig .tc := ⟨.hbm, 128, rfl⟩
abbrev main_call4_v9 : Ref sig .tc := ⟨.hbm, 129, rfl⟩
abbrev main_call4_v10 : Ref sig .tc := ⟨.hbm, 130, rfl⟩
abbrev main_call4_v11 : Ref sig .tc := ⟨.hbm, 131, rfl⟩
abbrev main_v50 : Ref sig .tc := ⟨.hbm, 132, rfl⟩
abbrev main_call5_cst : Ref sig .tc := ⟨.hbm, 133, rfl⟩
abbrev main_call5_v0 : Ref sig .tc := ⟨.hbm, 134, rfl⟩
abbrev main_call5_v1 : Ref sig .tc := ⟨.hbm, 135, rfl⟩
abbrev main_call5_v2 : Ref sig .tc := ⟨.hbm, 136, rfl⟩
abbrev main_call5_v3 : Ref sig .tc := ⟨.hbm, 137, rfl⟩
abbrev main_call5_v4 : Ref sig .tc := ⟨.hbm, 138, rfl⟩
abbrev main_call5_v5 : Ref sig .tc := ⟨.hbm, 139, rfl⟩
abbrev main_call5_v6 : Ref sig .tc := ⟨.hbm, 140, rfl⟩
abbrev main_call5_v7 : Ref sig .tc := ⟨.hbm, 141, rfl⟩
abbrev main_call5_v8 : Ref sig .tc := ⟨.hbm, 142, rfl⟩
abbrev main_call5_v9 : Ref sig .tc := ⟨.hbm, 143, rfl⟩
abbrev main_call5_v10 : Ref sig .tc := ⟨.hbm, 144, rfl⟩
abbrev main_call5_v11 : Ref sig .tc := ⟨.hbm, 145, rfl⟩
abbrev main_v51 : Ref sig .tc := ⟨.hbm, 146, rfl⟩
abbrev main_v52 : Ref sig .tc := ⟨.hbm, 147, rfl⟩
abbrev main_v53 : Ref sig .tc := ⟨.hbm, 148, rfl⟩
abbrev main_v54 : Ref sig .tc := ⟨.hbm, 149, rfl⟩
abbrev main_v55 : Ref sig .tc := ⟨.hbm, 150, rfl⟩
abbrev main_v56 : Ref sig .tc := ⟨.hbm, 151, rfl⟩
abbrev main_v57 : Ref sig .tc := ⟨.hbm, 152, rfl⟩
abbrev main_v58 : Ref sig .tc := ⟨.hbm, 153, rfl⟩
abbrev main_v59 : Ref sig .tc := ⟨.hbm, 154, rfl⟩
abbrev main_v60 : Ref sig .tc := ⟨.hbm, 155, rfl⟩
abbrev main_v61 : Ref sig .tc := ⟨.hbm, 156, rfl⟩
abbrev main_v62 : Ref sig .tc := ⟨.hbm, 157, rfl⟩
abbrev main_v63 : Ref sig .tc := ⟨.hbm, 158, rfl⟩
abbrev main_v64 : Ref sig .tc := ⟨.hbm, 159, rfl⟩
abbrev main_v65 : Ref sig .tc := ⟨.hbm, 160, rfl⟩
abbrev main_v66 : Ref sig .tc := ⟨.hbm, 161, rfl⟩
abbrev main_v67 : Ref sig .tc := ⟨.hbm, 162, rfl⟩
abbrev main_cst_13 : Ref sig .tc := ⟨.hbm, 163, rfl⟩
abbrev main_v68 : Ref sig .tc := ⟨.hbm, 164, rfl⟩
abbrev main_v69 : Ref sig .tc := ⟨.hbm, 165, rfl⟩
abbrev main_v70 : Ref sig .tc := ⟨.hbm, 166, rfl⟩
abbrev main_v71 : Ref sig .tc := ⟨.hbm, 167, rfl⟩
abbrev main_v72 : Ref sig .tc := ⟨.hbm, 168, rfl⟩
abbrev main_v73 : Ref sig .tc := ⟨.hbm, 169, rfl⟩
abbrev main_v74 : Ref sig .tc := ⟨.hbm, 170, rfl⟩
abbrev main_cst_14 : Ref sig .tc := ⟨.hbm, 171, rfl⟩
abbrev main_v75 : Ref sig .tc := ⟨.hbm, 172, rfl⟩
abbrev main_v76 : Ref sig .tc := ⟨.hbm, 173, rfl⟩
abbrev main_cst_15 : Ref sig .tc := ⟨.hbm, 174, rfl⟩
abbrev main_v77 : Ref sig .tc := ⟨.hbm, 175, rfl⟩
abbrev main_v78 : Ref sig .tc := ⟨.hbm, 176, rfl⟩
abbrev main_v79 : Ref sig .tc := ⟨.hbm, 177, rfl⟩
abbrev main_cst_16 : Ref sig .tc := ⟨.hbm, 178, rfl⟩
abbrev main_v80 : Ref sig .tc := ⟨.hbm, 179, rfl⟩
abbrev main_v81 : Ref sig .tc := ⟨.hbm, 180, rfl⟩
abbrev main_v82 : Ref sig .tc := ⟨.hbm, 181, rfl⟩
abbrev main_cst_17 : Ref sig .tc := ⟨.hbm, 182, rfl⟩
abbrev main_v83 : Ref sig .tc := ⟨.hbm, 183, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  reducesTo_S6400000x3_S6400000_d1 : S6400000x3.ReducesTo [1] S6400000
  h_S_ : 0 < S_.numel
  bcast_S_S1 : S_.BroadcastsInDim S1 (![] : Fin 0 → Fin S1.rank)
  bcast_S_S4x1 : S_.BroadcastsInDim S4x1 (![] : Fin 0 → Fin S4x1.rank)
  bcast_S1_S6400000_0 : S1.BroadcastsInDim S6400000 (![0] : Fin 1 → Fin S6400000.rank)
  bcast_S6400000_S1x6400000_1 : S6400000.BroadcastsInDim S1x6400000 (![1] : Fin 1 → Fin S1x6400000.rank)
  bcast_S4x1_S4x6400000_0_1 : S4x1.BroadcastsInDim S4x6400000 (![0, 1] : Fin 2 → Fin S4x6400000.rank)
  bcast_S1x6400000_S4x6400000_0_1 : S1x6400000.BroadcastsInDim S4x6400000 (![0, 1] : Fin 2 → Fin S4x6400000.rank)
  reducesTo_S4x6400000_S6400000_d0 : S4x6400000.ReducesTo [0] S6400000
  reducesTo_S6400000_S_d0 : S6400000.ReducesTo [0] S_
  reducesTo_S1_S_d0 : S1.ReducesTo [0] S_
  gather_S100000_S6400000x1_S6400000_n_0_n_n_0_1_1_wf : GatherDims.WF S100000 S6400000x1 S6400000 [] [0] [] [0] [] 1 ![1]
  gather_S100000x3_S6400000x1_S6400000x3_1_0_n_n_0_1_13_wf : GatherDims.WF S100000x3 S6400000x1 S6400000x3 [1] [0] [] [0] [] 1 ![1, 3]

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def gather_S100000x3_S6400000x1_S6400000x3_1_0_n_n_0_1_13 : GatherDims S100000x3 S6400000x1 S6400000x3 where
  offsetDims := [1]
  collapsedSliceDims := [0]
  operandBatchingDims := []
  startIndicesBatchingDims := []
  startIndexMap := [0]
  indexVectorDim := 1
  sliceSizes := ![1, 3]
  wf := gather_S100000x3_S6400000x1_S6400000x3_1_0_n_n_0_1_13_wf

class Facts : Prop extends Facts₀ where

variable [Facts]
-- ==== Proof.KStep.lean ====
/-
  What one grid point does to the running total, and what the last point of each half leaves in the output block.

  The body's scratch cell carries the running total of the per-edge energies. At a point it is first reset to
  zero (at the first point of each half of the grid), then the point's block total is added. At the last point of
  each half the cell's value is written to entry (0, 0) of the output block, zeros elsewhere. Here the three
  control cases of the body are read back as ONE pure function `step` of the point's input blocks and the previous
  cell contents, at any float instance.
-/
import proofs.«159565_j59622736003517_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.RegionValue

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- The running total after a point: the previous contents `xs` plus the total over the point's block of the
    per-edge energies computed from the distance block `x0`, the charge-power block `x1`, the masked charge-product
    block `x2`, the length scale `x3`, and rows 0–3 of the coefficient and exponent columns `x4`, `x5`. -/
def step (x0 x1 x2 : Vec F S5000x128 .f32) (x3 : Vec F S1 .f32) (x4 x5 : Vec F S4x1 .f32) (xs : Vec F S1x1 .f32) :
    Vec F S1x1 .f32 :=
  k0_pay1 (k0_pay5 x0)
    (k0_pay8 (k0_pay4 x0) (k0_pay6 x0 x3 x1) (k0_pay7 x0 x3 x1 (View.ld x4 (Rect.unit ![0, 0] ![1, 1] inb_S4x1_S1x1_0_0)) (View.ld x5 (Rect.unit ![0, 0] ![1, 1] inb_S4x1_S1x1_0_0)))
      (View.ld x4 (Rect.unit ![1, 0] ![1, 1] inb_S4x1_S1x1_1_0)) (View.ld x5 (Rect.unit ![1, 0] ![1, 1] inb_S4x1_S1x1_1_0)) (View.ld x4 (Rect.unit ![2, 0] ![1, 1] inb_S4x1_S1x1_2_0)) (View.ld x5 (Rect.unit ![2, 0] ![1, 1] inb_S4x1_S1x1_2_0)) (View.ld x4 (Rect.unit ![3, 0] ![1, 1] inb_S4x1_S1x1_3_0)) (View.ld x5 (Rect.unit ![3, 0] ![1, 1] inb_S4x1_S1x1_3_0)) x2) xs

/-- A middle point adds its block total to what the point before left. -/
theorem sout_B (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S1 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S8x128 .f32) (harg8 : arg8.IsWhole) (arg9 : Memref sig .tc .vmem S1x1 .f32) (harg9 : arg9.IsWhole) (hc0 : ¬cond0_0 i) (hc1 : ¬cond0_1 i) (x0 : Vec F S5000x128 .f32) (x1 : Vec F S5000x128 .f32) (x2 : Vec F S5000x128 .f32) (x3 : Vec F S1 .f32) (x4 : Vec F S4x1 .f32) (x5 : Vec F S4x1 .f32) (xs0 : Vec F S1x1 .f32) :
    sout0_B_0 c i arg2 harg2 arg3 harg3 arg4 harg4 arg5 harg5 arg6 harg6 arg7 harg7 arg8 harg8 arg9 harg9 hc0 hc1 x0 x1 x2 x3 x4 x5 xs0 = step x0 x1 x2 x3 x4 x5 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg9.read_unread, View.ld_unit_zero (S := S5000x128) hz2, View.ld_unit_zero (S := S1x1) hz2, View.ld_unit_zero (S := S1) hz1]
  rfl

/-- The last point of a half adds its block total likewise … -/
theorem sout_C (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S1 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S8x128 .f32) (harg8 : arg8.IsWhole) (arg9 : Memref sig .tc .vmem S1x1 .f32) (harg9 : arg9.IsWhole) (hc0 : ¬cond0_0 i) (hc1 : cond0_1 i) (x0 : Vec F S5000x128 .f32) (x1 : Vec F S5000x128 .f32) (x2 : Vec F S5000x128 .f32) (x3 : Vec F S1 .f32) (x4 : Vec F S4x1 .f32) (x5 : Vec F S4x1 .f32) (xs0 : Vec F S1x1 .f32) :
    sout0_C_0 c i arg2 harg2 arg3 harg3 arg4 harg4 arg5 harg5 arg6 harg6 arg7 harg7 arg8 harg8 arg9 harg9 hc0 hc1 x0 x1 x2 x3 x4 x5 xs0 = step x0 x1 x2 x3 x4 x5 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg9.read_unread, View.ld_unit_zero (S := S5000x128) hz2, View.ld_unit_zero (S := S1x1) hz2, View.ld_unit_zero (S := S1) hz1]
  rfl

/-- … and writes the new total to entry (0, 0) of the output block, zeros elsewhere. -/
theorem out_C (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S1 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S8x128 .f32) (harg8 : arg8.IsWhole) (arg9 : Memref sig .tc .vmem S1x1 .f32) (harg9 : arg9.IsWhole) (hc0 : ¬cond0_0 i) (hc1 : cond0_1 i) (x0 : Vec F S5000x128 .f32) (x1 : Vec F S5000x128 .f32) (x2 : Vec F S5000x128 .f32) (x3 : Vec F S1 .f32) (x4 : Vec F S4x1 .f32) (x5 : Vec F S4x1 .f32) (xs0 : Vec F S1x1 .f32) :
    out0_C_6 c i arg2 harg2 arg3 harg3 arg4 harg4 arg5 harg5 arg6 harg6 arg7 harg7 arg8 harg8 arg9 harg9 hc0 hc1 x0 x1 x2 x3 x4 x5 xs0 = k0_pay2 (step x0 x1 x2 x3 x4 x5 xs0) := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S8x128) hz2, View.readCov_unit_zero (S := S1x1) _ hz2]
  simp only [View.readAt_eq_ld, harg2.read_unread, harg3.read_unread, harg4.read_unread, harg5.read_unread, harg6.read_unread, harg7.read_unread, harg9.read_unread, View.ld_unit_zero (S := S5000x128) hz2, View.ld_unit_zero (S := S1x1) hz2, View.ld_unit_zero (S := S1) hz1]
  rfl

/-- The first point of a half starts from the zero cell. -/
theorem sout_A (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S1 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S8x128 .f32) (harg8 : arg8.IsWhole) (arg9 : Memref sig .tc .vmem S1x1 .f32) (harg9 : arg9.IsWhole) (hc0 : cond0_0 i) (hc1 : ¬cond0_1 i) (x0 : Vec F S5000x128 .f32) (x1 : Vec F S5000x128 .f32) (x2 : Vec F S5000x128 .f32) (x3 : Vec F S1 .f32) (x4 : Vec F S4x1 .f32) (x5 : Vec F S4x1 .f32) :
    sout0_A_0 c i arg2 harg2 arg3 harg3 arg4 harg4 arg5 harg5 arg6 harg6 arg7 harg7 arg8 harg8 arg9 harg9 hc0 hc1 x0 x1 x2 x3 x4 x5 = step x0 x1 x2 x3 x4 x5 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread, harg9.read_unread, View.ld_unit_zero (S := S5000x128) hz2, View.ld_unit_zero (S := S1x1) hz2, View.ld_unit_zero (S := S1) hz1]
  rfl

end Cert.KernelIdeal.RegionValue

end
-- ==== Proof.KAcc.lean ====
/-
  The running total over the grid, point by point.

  The grid's ten points are visited in order; `acc n` is the scratch cell after point `n`: the point's block total
  added to the zero cell at points 0 and 5 (the first point of each half) and to `acc (n - 1)` otherwise. What the
  frame's bookkeeping records after each point is this function (by induction on the point), and at points 4 and 9
  the output block holds `acc` at entry (0, 0) and zeros elsewhere.
-/
import proofs.«159565_j59622736003517_2_alg».proof.Proof.KStep

noncomputable section

open Idealize.ShloMosaic Idealize.ShloMosaic.TcCoe Idealize.SL.Sem
open Idealize.ShloMosaic.Pipeline (Dat)

namespace Cert.KernelIdeal.RegionValue

open Cert.KernelIdeal Cert.KernelIdeal.Gen

variable {F : FTy → Type} [FloatOps F]
variable (m : (ℓ : Loc nD τ sig) → Buf (Elt F) ℓ)

/-- The scratch cell after point `n`. -/
def acc (c : Dev nD) : (n : ℕ) → n < cfg0.N → Vec F S1x1 .f32
  | 0, h => step (iblk m c 0 ⟨0, h⟩) (iblk m c 1 ⟨0, h⟩) (iblk m c 2 ⟨0, h⟩) (iblk m c 3 ⟨0, h⟩) (iblk m c 4 ⟨0, h⟩) (iblk m c 5 ⟨0, h⟩) (k0_pay3 (F := F))
  | n + 1, h => step (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩)
      (if (n + 1) % 5 = 0 then (k0_pay3 (F := F)) else acc c n (Nat.lt_of_succ_lt h))

theorem acc_succ (c : Dev nD) (n : ℕ) (h : n + 1 < cfg0.N) :
    acc m c (n + 1) h = step (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩)
      (if (n + 1) % 5 = 0 then (k0_pay3 (F := F)) else acc m c n (Nat.lt_of_succ_lt h)) := rfl

/-- The frame's record of the scratch cell after each point is `acc`: by induction on the point. -/
theorem outsAt_snd (c : Dev nD) : ∀ (n : ℕ) (h : n < cfg0.N), (outsAt0 m c n h).2 = acc m c n h
  | 0, h => by
    rw [outsAt0_A m c ⟨0, h⟩ rfl (by show ¬0 % 5 = 4; decide)]
    dsimp only
    exact sout_A ..
  | n + 1, h => by
    rw [acc_succ]
    by_cases h0 : (n + 1) % 5 = 0
    · have h1 : ¬(n + 1) % 5 = 4 := by omega
      rw [outsAt0_A m c ⟨n + 1, h⟩ h0 h1, if_pos h0]
      dsimp only
      exact sout_A ..
    · by_cases h1 : (n + 1) % 5 = 4
      · rw [outsAt0_C m c ⟨n + 1, h⟩ h0 h1, if_neg h0]
        dsimp only
        rw [sout_C]
        show step _ _ _ _ _ _ (outsAt0 m c n _).2 = _
        rw [outsAt_snd c n]
      · rw [outsAt0_B m c ⟨n + 1, h⟩ h0 h1, if_neg h0]
        dsimp only
        rw [sout_B]
        show step _ _ _ _ _ _ (outsAt0 m c n _).2 = _
        rw [outsAt_snd c n]

/-- At the last point of a half the output block holds the running total at entry (0, 0), zeros elsewhere. -/
theorem outsAt_fst_C (c : Dev nD) (t : Fin cfg0.N) (h0 : ¬t.val % 5 = 0) (h1 : t.val % 5 = 4) :
    (outsAt0 m c t.val t.isLt).1 = k0_pay2 (acc m c t.val t.isLt) := by
  obtain ⟨n, hn⟩ := t
  cases n with
  | zero => exact absurd (Nat.zero_mod _) h0
  | succ n =>
    rw [outsAt0_C m c ⟨n + 1, hn⟩ h0 h1, acc_succ, if_neg h0]
    dsimp only
    rw [out_C]
    show k0_pay2 (step _ _ _ _ _ _ (outsAt0 m c n _).2) = _
    rw [outsAt_snd m c n]

end Cert.KernelIdeal.RegionValue

end
-- ==== Proof.KArray.lean ====
/-
  The output array of the region: two 8 × 128 blocks, one per half of the grid.

  The output window's block index is (half, 0), and the pipeline writes the block back only after the last point
  of each half (points 4 and 9). So the [16, 128] array ends holding, in rows 0–7, what point 4 left in the output
  block and, in rows 8–15, what point 9 left: the running total of that half at entry (0, 0) of the block and zeros
  elsewhere.
-/
import proofs.«159565_j59622736003517_2_alg».proof.Proof.KAcc

noncomputable section

open Idealize.ShloMosaic Idealize.ShloMosaic.TcCoe Idealize.SL.Sem
open Idealize.ShloMosaic.Pipeline (Dat)

namespace Cert.KernelIdeal.RegionValue

open Cert.KernelIdeal Cert.KernelIdeal.Gen

variable {F : FTy → Type} [FloatOps F]
variable (m : (ℓ : Loc nD τ sig) → Buf (Elt F) ℓ)

theorem lt4 : 4 < cfg0.N := by rw [show cfg0.N = 10 from N_0]; decide
theorem lt9 : 9 < cfg0.N := by rw [show cfg0.N = 10 from N_0]; decide

/-- The output array after the region: rows 0–7 from point 4's block, rows 8–15 from point 9's. -/
def outArr (c : Dev nD) : Buf (Elt F) ((c : Thread nD τ).loc main_v65) := fun i =>
  if (i 0).val < 8 then
    k0_pay2 (acc m c 4 lt4) (fun a => match a with
      | ⟨0, _⟩ => ⟨(i 0).val % 8, Nat.mod_lt _ (by decide)⟩
      | ⟨1, _⟩ => ⟨(i 1).val, (i 1).isLt⟩)
  else
    k0_pay2 (acc m c 9 lt9) (fun a => match a with
      | ⟨0, _⟩ => ⟨(i 0).val % 8, Nat.mod_lt _ (by decide)⟩
      | ⟨1, _⟩ => ⟨(i 1).val, (i 1).isLt⟩)

/-- Where the two written-back blocks sit: block row `t / 5`, block column 0. -/
theorem idx6_facts : ∀ t : Fin cfg0.N, win0_6.index t (0 : Fin 2) = t.val / 5 ∧ win0_6.index t (1 : Fin 2) = 0 :=
  (by decide +kernel : ∀ t : Fin grid0.N, win0_6.index t (0 : Fin 2) = t.val / 5 ∧ win0_6.index t (1 : Fin 2) = 0)

/-- What each write-back writes is the array's block there. -/
theorem flushed_eq (c : Dev nD) (t : Fin cfg0.N) (hf : (cfg0.win 6).flush t = true) :
    (dats m 0 c).flushed 6 t = ((cfg0.win 6).blk t).view.read (Elt F) (outArr m c) := by
  have hN : cfg0.N = 10 := N_0
  have h4 : t.val % 5 = 4 := (flush0_6 t).mp hf
  have h0 : ¬t.val % 5 = 0 := by omega
  show (cfg0.win 6).cut (grid0.coords t) ((dats m 0 c).after 6 t) = _
  rw [after0_6, outsAt_fst_C m c t h0 h4]
  funext y
  rw [View.read_apply]
  have e0 : ((((cfg0.win 6).blk t).view.emb y) 0).val = t.val / 5 * 8 + (y 0).val := by
    show win0_6.index t 0 * 8 + 1 * (y 0).val = _
    rw [(idx6_facts t).1]; omega
  have e1 : ((((cfg0.win 6).blk t).view.emb y) 1).val = (y 1).val := by
    show win0_6.index t 1 * 128 + 1 * (y 1).val = _
    rw [(idx6_facts t).2]; omega
  have hy0 : (y 0).val < 8 := (y 0).isLt
  have ht : t.val < 10 := lt_of_lt_of_eq t.isLt hN
  have hcase : t.val = 4 ∨ t.val = 9 := by omega
  unfold outArr
  rcases hcase with h | h
  · obtain rfl : t = ⟨4, lt4⟩ := Fin.ext h
    rw [if_pos (by rw [e0]; omega)]
    refine congrArg (k0_pay2 (acc m c 4 lt4)) (funext fun a => Fin.ext ?_)
    match a with
    | ⟨0, _⟩ => show (y 0).val = ((((cfg0.win 6).blk ⟨4, lt4⟩).view.emb y) 0).val % 8; rw [e0]; omega
    | ⟨1, _⟩ => show (y 1).val = ((((cfg0.win 6).blk ⟨4, lt4⟩).view.emb y) 1).val; rw [e1]
  · obtain rfl : t = ⟨9, lt9⟩ := Fin.ext h
    rw [if_neg (by rw [e0]; omega)]
    refine congrArg (k0_pay2 (acc m c 9 lt9)) (funext fun a => Fin.ext ?_)
    match a with
    | ⟨0, _⟩ => show (y 0).val = ((((cfg0.win 6).blk ⟨9, lt9⟩).view.emb y) 0).val % 8; rw [e0]; omega
    | ⟨1, _⟩ => show (y 1).val = ((((cfg0.win 6).blk ⟨9, lt9⟩).view.emb y) 1).val; rw [e1]

/-- Block sizes of the output window: every block is a whole 8 × 128 block. -/
theorem xsize6_facts : ∀ t : Fin cfg0.N, win0_6.xsize (grid0.coords t) (0 : Fin 2) = 8 ∧ win0_6.xsize (grid0.coords t) (1 : Fin 2) = 128 :=
  (by decide +kernel : ∀ t : Fin grid0.N, win0_6.xsize (grid0.coords t) (0 : Fin 2) = 8 ∧ win0_6.xsize (grid0.coords t) (1 : Fin 2) = 128)

theorem size6_facts : win0_6.size (0 : Fin 2) = 8 ∧ win0_6.size (1 : Fin 2) = 128 := by decide +kernel

/-- The two written-back blocks cover the array, so it ends holding `outArr`. -/
theorem final_out (c : Dev nD) : (dats m 0 c).arrAt 6 cfg0.N = outArr m c :=
  (dats m 0 c).arrAt_eq_of_cover 6 (outArr m c) (flushed_eq m c) fun i => by
    have h0 : (i 0 : Nat) < 16 := (i 0).isLt
    have h1 : (i 1 : Nat) < 128 := (i 1).isLt
    by_cases h : (i 0 : Nat) < 8
    · refine ⟨⟨4, lt4⟩, (flush0_6 _).mpr rfl, ?_⟩
      show i ∈ ((View.whole main_v65).slice (win0_6.rect ⟨4, lt4⟩)).set
      rw [View.set_slice_whole, Rect.mem_set_unit]
      intro a
      match a with
      | ⟨0, _⟩ =>
        show win0_6.index ⟨4, lt4⟩ 0 * win0_6.size 0 ≤ (i 0 : Nat) ∧ (i 0 : Nat) < win0_6.index ⟨4, lt4⟩ 0 * win0_6.size 0 + win0_6.xsize (grid0.coords ⟨4, lt4⟩) 0
        rw [(idx6_facts ⟨4, lt4⟩).1, size6_facts.1, (xsize6_facts ⟨4, lt4⟩).1]; dsimp only; omega
      | ⟨1, _⟩ =>
        show win0_6.index ⟨4, lt4⟩ 1 * win0_6.size 1 ≤ (i 1 : Nat) ∧ (i 1 : Nat) < win0_6.index ⟨4, lt4⟩ 1 * win0_6.size 1 + win0_6.xsize (grid0.coords ⟨4, lt4⟩) 1
        rw [(idx6_facts ⟨4, lt4⟩).2, size6_facts.2, (xsize6_facts ⟨4, lt4⟩).2]; omega
    · refine ⟨⟨9, lt9⟩, (flush0_6 _).mpr rfl, ?_⟩
      show i ∈ ((View.whole main_v65).slice (win0_6.rect ⟨9, lt9⟩)).set
      rw [View.set_slice_whole, Rect.mem_set_unit]
      intro a
      match a with
      | ⟨0, _⟩ =>
        show win0_6.index ⟨9, lt9⟩ 0 * win0_6.size 0 ≤ (i 0 : Nat) ∧ (i 0 : Nat) < win0_6.index ⟨9, lt9⟩ 0 * win0_6.size 0 + win0_6.xsize (grid0.coords ⟨9, lt9⟩) 0
        rw [(idx6_facts ⟨9, lt9⟩).1, size6_facts.1, (xsize6_facts ⟨9, lt9⟩).1]; dsimp only; omega
      | ⟨1, _⟩ =>
        show win0_6.index ⟨9, lt9⟩ 1 * win0_6.size 1 ≤ (i 1 : Nat) ∧ (i 1 : Nat) < win0_6.index ⟨9, lt9⟩ 1 * win0_6.size 1 + win0_6.xsize (grid0.coords ⟨9, lt9⟩) 1
        rw [(idx6_facts ⟨9, lt9⟩).2, size6_facts.2, (xsize6_facts ⟨9, lt9⟩).2]; omega

end Cert.KernelIdeal.RegionValue

end
-- ==== Proof.Spec.lean ====
/-
  The pair energy of the screened nuclear repulsion, one edge at a time, in the two spellings the programs use.

  For an edge with distance `dr`, charges `zi`, `zj`, and the learned scalars `ae`, `an`, `c k`, `e k` (k < 4):
  the distance is clamped into [0.02, 6]; `dist = d · (zi^ae + zj^ae) / an`; the screening function is
  `f = Σ_k c_k · exp(-e_k · dist)`; the cutoff is `(cos(π d / 6) + 1) / 2`; the energy is `zi zj / d · f · cutoff`,
  masked to zero on a self edge.

  `edgeK` is the spelling over three precombined streams (distance, `zi^ae + zj^ae`, and the masked charge product),
  with `π/6` as one folded constant and the four screening terms added left to right; `edgeR` is the spelling
  that multiplies by `π` and divides by `6`, sums the four terms as a finite sum from zero, and multiplies by the
  mask at the end. Both are stated on the extended reals with the operations' exact meanings.
-/
import Idealize.ShloMosaic.PureOps.Ideal

noncomputable section

namespace Cert.ZBL

open Idealize.ShloMosaic

/-- The distance clamped into `[0.02, 6]`. -/
def clampR (dr : EReal) : EReal :=
  min (Ideal.ofBits .f32 0x40C00000#32) (max (Ideal.ofBits .f32 0x3CA3D70A#32) dr)

/-- The per-edge energy from the three precombined streams: `adiv = zi^ae + zj^ae`, `zz` the masked product. -/
def edgeK (dr adiv zz an : EReal) (c e : Fin 4 → EReal) : EReal :=
  (Ideal.div zz (clampR dr)
    * (((c 0 * Ideal.exp ((Ideal.ofBits .f32 0x00000000#32 - e 0) * Ideal.div (clampR dr * adiv) an)
        + c 1 * Ideal.exp ((Ideal.ofBits .f32 0x00000000#32 - e 1) * Ideal.div (clampR dr * adiv) an))
        + c 2 * Ideal.exp ((Ideal.ofBits .f32 0x00000000#32 - e 2) * Ideal.div (clampR dr * adiv) an))
        + c 3 * Ideal.exp ((Ideal.ofBits .f32 0x00000000#32 - e 3) * Ideal.div (clampR dr * adiv) an)))
    * (Ideal.ofBits .f32 0x3F000000#32
        * (Ideal.cos (clampR dr * Ideal.ofBits .f32 0x3F060A92#32) + Ideal.ofBits .f32 0x3F800000#32))

/-- The per-edge energy as the plain formula spells it; `ne` is the bit "the two endpoints differ". -/
def edgeR (dr zi zj ae an : EReal) (c e : Fin 4 → EReal) (ne : BitVec 1) : EReal :=
  ((Ideal.div (zi * zj) (clampR dr)
      * (Ideal.ofBits .f32 0x00000000#32
          + ∑ k : Fin 4, c k * Ideal.exp (-(e k) * Ideal.div (clampR dr * (Ideal.pow zi ae + Ideal.pow zj ae)) an)))
    * (Ideal.ofBits .f32 0x3F000000#32
        * (Ideal.cos (Ideal.div (Ideal.ofBits .f32 0x40490FDB#32 * clampR dr) (Ideal.ofBits .f32 0x40C00000#32))
            + Ideal.ofBits .f32 0x3F800000#32)))
    * ((ne.toNat : ℝ) : EReal)

/-- The masked charge product: the product where the endpoints differ, zero on a self edge. -/
def maskedZZ (zi zj : EReal) (ne : BitVec 1) : EReal :=
  if ne = 1 then zi * zj else Ideal.ofBits .f32 0x00000000#32

/-! ## The sum over all edges, block by block

The edges are numbered `0 … 6399999`; block `t` (of ten) holds rows `5000 t … 5000 t + 4999` of 128 edges each.
`blockSum g t` is the block's total, rows first and lanes inside; `runSum g z n` is a running accumulator that is
reset to `z` at blocks `0` and `5` and otherwise carries the previous block's value, after adding block `n`. -/

/-- The total of block `t`: over its 5000 rows, the sum over the row's 128 lanes. -/
def blockSum (g : ℕ → EReal) (t : ℕ) : EReal :=
  ∑ r : Fin 5000, ∑ l : Fin 128, g ((t * 5000 + r.val) * 128 + l.val)

/-- The accumulator after block `n`: restarted from `z` at every fifth block, carried otherwise. -/
def runSum (g : ℕ → EReal) (z : EReal) : ℕ → EReal
  | 0 => z + blockSum g 0
  | n + 1 => (if (n + 1) % 5 = 0 then z else runSum g z n) + blockSum g (n + 1)

end Cert.ZBL

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.KPayload.lean ====
/-
  The values the kernel body stores, read at an index.

  The body stores three things. At the first block of each half it stores the zero vector into the one-element
  accumulator. At every block it stores the accumulator plus the block's total: the per-edge energy at every row and
  lane, summed over the lanes of each row, the row sums kept as a column and summed over the rows. At the last block
  of each half it stores an `8 × 128` tile that holds the accumulator at position `(0, 0)` and zero elsewhere.

  Every operation is read at an index: the pointwise ones are the extended reals' operations on the entries; a cast
  between two shapes with one element, and a broadcast of a one-element vector, read that one element; a sum over
  one axis is the finite sum over that axis's coordinate. The per-edge term then is, literally, the per-edge energy
  in the spelling over three precombined streams.
-/
import proofs.«159565_j59622736003517_2_alg».proof.Proof.Gen.KernelIdeal.Skeleton
import proofs.«159565_j59622736003517_2_alg».proof.Proof.Spec
import proofs.«159565_j59622736003517_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ZBL

open Idealize.ShloMosaic Idealize.ShloMosaic.ValueIdx Cert.KernelIdeal Cert.KernelIdeal.Gen

/-! ## Shapes with one element, read at an index -/

section Layout
variable {α : Type}

/-- The shape `[1, 1]` has the one index `(0, 0)`. -/
theorem idx11_eq (y : (⟨2, ![1, 1]⟩ : Shape).Idx) : y = ix2 (0 : Fin 1) (0 : Fin 1) := by
  funext d
  match d with
  | ⟨0, _⟩ => exact Fin.ext (by have := idx2_lt0 y; show (y 0).val = 0; omega)
  | ⟨1, _⟩ => exact Fin.ext (by have := idx2_lt1 y; show (y 1).val = 0; omega)

/-- A `[1, 1]` vector broadcast to `[a, b]` reads its one entry at every `(i, j)`: both of its axes are unit axes. -/
theorem broadcastTo_11_ab_apply {a b : ℕ} (v : (⟨2, ![1, 1]⟩ : Shape).Idx → α)
    (h : (⟨2, ![1, 1]⟩ : Shape).Broadcasts ⟨2, ![a, b]⟩) (i : Fin a) (j : Fin b) :
    broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ =>
    show 0 = if (1 : ℕ) = 1 then 0 else i.val
    rw [if_pos rfl]
  | ⟨1, _⟩ =>
    show 0 = if (1 : ℕ) = 1 then 0 else j.val
    rw [if_pos rfl]

/-- A `[1]` vector cast to `[1, 1]` reads, at `(0, 0)`, its one entry. -/
theorem shapeCast_1_11_apply (x : (⟨1, ![1]⟩ : Shape).Idx → α) (h : (⟨1, ![1]⟩ : Shape).ShapeCasts ⟨2, ![1, 1]⟩) :
    shapeCast ⟨2, ![1, 1]⟩ x h (ix2 (0 : Fin 1) (0 : Fin 1)) = x (ix1 (0 : Fin 1)) :=
  Cert.LibKeepdims.shapeCast_a_a1_apply x h 0 0

/-- A `[1, 1]` vector cast to `[1]` reads, at `0`, its one entry: both positions are the first in row-major order. -/
theorem shapeCast_11_1_apply (x : (⟨2, ![1, 1]⟩ : Shape).Idx → α) (h : (⟨2, ![1, 1]⟩ : Shape).ShapeCasts ⟨1, ![1]⟩) :
    shapeCast ⟨1, ![1]⟩ x h (ix1 (0 : Fin 1)) = x (ix2 (0 : Fin 1) (0 : Fin 1)) :=
  shapeCast_apply x h _ _ (by
    rw [Shape.rowMajor_val_two, Shape.rowMajor_val_one]
    rfl)

/-- On the extended reals a float sum over the first axis of a column `[a, 1]` reads, at its one index, the sum of the
    column's entries: the index with coordinate `k` put back on the summed axis is `(k, 0)`. -/
theorem multiReduction_add_col_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin a, src (ix2 k (0 : Fin 1)) := by
  refine (Ideal.multiReduction_add_single src acc h hφ hacc (ix1 (0 : Fin 1))).trans ?_
  exact Finset.sum_congr rfl fun k _ => congrArg src (funext fun d => Fin.ext (by
    match d with
    | ⟨0, _⟩ => rfl
    | ⟨1, _⟩ => rfl))

end Layout

/-- The exponential of a vector reads the exponential of the entry. -/
theorem exp_apply {s : Shape} {φ : FTy} (a : FVec Ideal s φ) (i : s.Idx) :
    Idealize.ShloMosaic.exp a i = Ideal.exp (a i) := rfl

/-- The cosine of a vector reads the cosine of the entry. -/
theorem cos_apply {s : Shape} {φ : FTy} (a : FVec Ideal s φ) (i : s.Idx) :
    Idealize.ShloMosaic.cos a i = Ideal.cos (a i) := rfl

/-! ## The zero stored at the start of each half -/

/-- The vector stored at the first block of each half is zero at its one index. -/
theorem pay3_apply (y : S1x1.Idx) : k0_pay3 (F := Ideal) y = Ideal.ofBits .f32 0x00000000#32 := by
  unfold k0_pay3
  rw [shapeCast_self]
  rfl

/-! ## The tile stored at the end of each half -/

/-- A 32-bit word of a number below `2³²` equals the zero word exactly when the number is zero. -/
theorem cmpi_eq_zero (n : ℕ) (hn : n < 2 ^ 32) :
    IntOp.cmpi .eq (BitVec.ofNat 32 n) 0#32 = if n = 0 then 1#1 else 0#1 := by
  by_cases h0 : n = 0
  · subst h0; rfl
  · rw [if_neg h0]
    have hne : BitVec.ofNat 32 n ≠ 0#32 := by
      intro h
      have := congrArg BitVec.toNat h
      rw [BitVec.toNat_ofNat, Nat.mod_eq_of_lt hn] at this
      exact h0 this
    have hb : (BitVec.ofNat 32 n == 0#32) = false := beq_eq_false_iff_ne.mpr hne
    show BitVec.ofBool (BitVec.ofNat 32 n == 0#32) = 0#1
    rw [hb]
    rfl

/-- A select on "both numbers are zero" is the `if` on the two numbers. -/
theorem select_and_eq0 {β : Type} (m n : ℕ) (hm : m < 2 ^ 32) (hn : n < 2 ^ 32) (A B : β) :
    Scalar.select (IntOp.andi (IntOp.cmpi .eq (BitVec.ofNat 32 m) 0#32) (IntOp.cmpi .eq (BitVec.ofNat 32 n) 0#32)) A B
      = if m = 0 ∧ n = 0 then A else B := by
  rw [cmpi_eq_zero m hm, cmpi_eq_zero n hn]
  by_cases h1 : m = 0
  · by_cases h2 : n = 0
    · rw [if_pos h1, if_pos h2, if_pos ⟨h1, h2⟩]; rfl
    · rw [if_pos h1, if_neg h2, if_neg (fun h => h2 h.2)]; rfl
  · by_cases h2 : n = 0
    · rw [if_neg h1, if_pos h2, if_neg (fun h => h1 h.1)]; rfl
    · rw [if_neg h1, if_neg h2, if_neg (fun h => h1 h.1)]; rfl

/-- The row counter of an `8 × 128` tile reads the row. -/
theorem iota_row_apply (h : S8x128.Iotas .tc 32 [0]) (i : Fin 8) (j : Fin 128) :
    iota .tc S8x128 32 [0] h (ix2 i j) = BitVec.ofNat 32 i.val := by
  show BitVec.ofNat 32 (0 * 8 + i.val) = _
  rw [Nat.zero_mul, Nat.zero_add]

/-- The lane counter of an `8 × 128` tile reads the lane. -/
theorem iota_col_apply (h : S8x128.Iotas .tc 32 [1]) (i : Fin 8) (j : Fin 128) :
    iota .tc S8x128 32 [1] h (ix2 i j) = BitVec.ofNat 32 j.val := by
  show BitVec.ofNat 32 (0 * 128 + j.val) = _
  rw [Nat.zero_mul, Nat.zero_add]

/-- The tile stored at the last block of each half holds the accumulator at `(0, 0)` and zero elsewhere. -/
theorem pay2_apply (v : Vec Ideal S1x1 .f32) (i : Fin 8) (j : Fin 128) :
    k0_pay2 (F := Ideal) v (ix2 i j)
      = if i.val = 0 ∧ j.val = 0 then v (ix2 0 0) else Ideal.ofBits .f32 0x00000000#32 := by
  show Scalar.select (IntOp.andi (IntOp.cmpi .eq (iota .tc S8x128 32 [0] iota_S8x128_d0_w32 (ix2 i j)) 0#32)
        (IntOp.cmpi .eq (iota .tc S8x128 32 [1] iota_S8x128_d1_w32 (ix2 i j)) 0#32))
      (broadcastTo S8x128 (shapeCast S1x1 v shapeCasts_S1x1_S1x1) broadcasts_S1x1_S8x128 (ix2 i j))
      (Ideal.ofBits .f32 0x00000000#32) = _
  rw [iota_row_apply, iota_col_apply, broadcastTo_11_ab_apply, shapeCast_self,
    select_and_eq0 i.val j.val (by have := i.isLt; omega) (by have := j.isLt; omega)]

/-! ## The accumulator plus the block's total -/

section Block
variable (x0 x1 x2 : Vec Ideal S5000x128 .f32) (x3 : Vec Ideal S1 .f32)
  (c0 e0 c1 e1 c2 e2 c3 e3 : Vec Ideal S1x1 .f32) (r : Fin 5000) (l : Fin 128)

/-- The clamped distance at row `r`, lane `l`. -/
theorem pay4_apply : k0_pay4 (F := Ideal) x0 (ix2 r l) = clampR (x0 (ix2 r l)) := by
  unfold k0_pay4 clampR
  rw [shapeCast_self]
  rfl

/-- The cutoff at row `r`, lane `l`: half of the cosine of the clamped distance times the folded constant, plus one. -/
theorem pay5_apply :
    k0_pay5 (F := Ideal) x0 (ix2 r l)
      = Ideal.ofBits .f32 0x3F000000#32
          * (Ideal.cos (clampR (x0 (ix2 r l)) * Ideal.ofBits .f32 0x3F060A92#32) + Ideal.ofBits .f32 0x3F800000#32) := by
  rw [← pay4_apply x0 r l]
  rfl

/-- The scaled distance at row `r`, lane `l`: the clamped distance times the sum of powers, over the length scale. -/
theorem pay6_apply :
    k0_pay6 (F := Ideal) x0 x3 x1 (ix2 r l) = Ideal.div (clampR (x0 (ix2 r l)) * x1 (ix2 r l)) (x3 (ix1 0)) := by
  simp only [k0_pay6, divf_apply, mulf_apply, shapeCast_self, broadcastTo_11_ab_apply, shapeCast_1_11_apply, pay4_apply]

/-- The first screening term at row `r`, lane `l`. -/
theorem pay7_apply :
    k0_pay7 (F := Ideal) x0 x3 x1 c0 e0 (ix2 r l)
      = c0 (ix2 0 0) * Ideal.exp ((Ideal.ofBits .f32 0x00000000#32 - e0 (ix2 0 0))
          * Ideal.div (clampR (x0 (ix2 r l)) * x1 (ix2 r l)) (x3 (ix1 0))) := by
  simp only [k0_pay7, mulf_apply, subf_apply, exp_apply, broadcast_apply, broadcastTo_11_ab_apply, shapeCast_1_11_apply,
    shapeCast_11_1_apply, pay6_apply]
  rfl

/-- The masked quotient times the four screening terms added left to right, at row `r`, lane `l`, over any clamped
    distance `v8`, scaled distance `v23` and first term `v36`. -/
theorem pay8_apply (v8 v23 v36 : FVec Ideal S5000x128 .f32) :
    k0_pay8 (F := Ideal) v8 v23 v36 c1 e1 c2 e2 c3 e3 x2 (ix2 r l)
      = Ideal.div (x2 (ix2 r l)) (v8 (ix2 r l))
        * (((v36 (ix2 r l)
            + c1 (ix2 0 0) * Ideal.exp ((Ideal.ofBits .f32 0x00000000#32 - e1 (ix2 0 0)) * v23 (ix2 r l)))
            + c2 (ix2 0 0) * Ideal.exp ((Ideal.ofBits .f32 0x00000000#32 - e2 (ix2 0 0)) * v23 (ix2 r l)))
            + c3 (ix2 0 0) * Ideal.exp ((Ideal.ofBits .f32 0x00000000#32 - e3 (ix2 0 0)) * v23 (ix2 r l))) := by
  simp only [k0_pay8, mulf_apply, addf_apply, divf_apply, subf_apply, exp_apply, broadcast_apply, broadcastTo_11_ab_apply,
    shapeCast_1_11_apply, shapeCast_11_1_apply, shapeCast_self]
  rfl

/-- The term the block sums at row `r`, lane `l` is the per-edge energy over the three streams there. -/
theorem edge_at :
    mulf (k0_pay8 (F := Ideal) (k0_pay4 x0) (k0_pay6 x0 x3 x1) (k0_pay7 x0 x3 x1 c0 e0) c1 e1 c2 e2 c3 e3 x2) (k0_pay5 x0)
        (ix2 r l)
      = edgeK (x0 (ix2 r l)) (x1 (ix2 r l)) (x2 (ix2 r l)) (x3 (ix1 0))
          ![c0 (ix2 0 0), c1 (ix2 0 0), c2 (ix2 0 0), c3 (ix2 0 0)]
          ![e0 (ix2 0 0), e1 (ix2 0 0), e2 (ix2 0 0), e3 (ix2 0 0)] := by
  rw [mulf_apply, pay8_apply, pay4_apply, pay6_apply, pay7_apply, pay5_apply]
  rfl

end Block

/-- The stored accumulator at its one index is the old accumulator plus the sum, over the block's rows and then the
    lanes of each row, of the product of the two vectors it is given. -/
theorem pay1_sum (v15 v82 : FVec Ideal S5000x128 .f32) (xs : Vec Ideal S1x1 .f32) :
    k0_pay1 (F := Ideal) v15 v82 xs (ix2 0 0)
      = xs (ix2 0 0) + ∑ r : Fin 5000, ∑ l : Fin 128, mulf v82 v15 (ix2 r l) := by
  dsimp only [k0_pay1]
  rw [shapeCast_self, addf_apply, shapeCast_1_11_apply]
  congr 1
  refine (multiReduction_add_col_apply _ _ _ _ _).trans ?_
  refine Finset.sum_congr rfl fun r _ => ?_
  rw [Cert.LibKeepdims.shapeCast_a_a1_apply]
  exact Cert.LibKeepdims.multiReduction_add_lastAxis_apply _ _ _ _ _ r

/-- The stored accumulator is the old accumulator plus the block's total of the per-edge energies. -/
theorem pay1_apply (x0 x1 x2 : Vec Ideal S5000x128 .f32) (x3 : Vec Ideal S1 .f32)
    (c0 e0 c1 e1 c2 e2 c3 e3 xs : Vec Ideal S1x1 .f32) (y : S1x1.Idx) :
    k0_pay1 (F := Ideal) (k0_pay5 x0)
        (k0_pay8 (k0_pay4 x0) (k0_pay6 x0 x3 x1) (k0_pay7 x0 x3 x1 c0 e0) c1 e1 c2 e2 c3 e3 x2) xs y
      = xs y + ∑ r : Fin 5000, ∑ l : Fin 128,
          edgeK (x0 (ix2 r l)) (x1 (ix2 r l)) (x2 (ix2 r l)) (x3 (ix1 0))
            ![c0 (ix2 0 0), c1 (ix2 0 0), c2 (ix2 0 0), c3 (ix2 0 0)]
            ![e0 (ix2 0 0), e1 (ix2 0 0), e2 (ix2 0 0), e3 (ix2 0 0)] := by
  obtain rfl := idx11_eq y
  rw [pay1_sum]
  congr 1
  exact Finset.sum_congr rfl fun r _ => Finset.sum_congr rfl fun l _ =>
    edge_at x0 x1 x2 x3 c0 e0 c1 e1 c2 e2 c3 e3 r l

end Cert.ZBL

end
-- ==== Proof.Shared.lean ====
/-
  The quantities both programs compute, as functions of the argument arrays, and the value both end with.

  Per edge `n`: the distance `|R[j] - R[i]|` (before clamping), the two gathered charges, and the bit "the endpoints
  differ" are the same host computations in both programs; the five learned scalars pass through the same softplus.
  `edgeAt` is the per-edge energy of edge `n` in the plain formula's spelling over those quantities (zero past the
  last edge, so that it is a function on the naturals); `finalOf` is the closing scale `0.5 · rs · 14.3996 · total`
  summed over its one entry.
-/
import proofs.«159565_j59622736003517_2_alg».proof.Proof.Spec
import proofs.«159565_j59622736003517_2_alg».proof.Proof.Gen.ReferenceIdeal.Read
import Idealize.ShloMosaic.Lib.ValueIdx

noncomputable section

namespace Cert.ZBL

open Idealize.ShloMosaic Idealize.ShloMosaic.ValueIdx Cert.ReferenceIdeal Cert.ReferenceIdeal.Read

/-- The energy of edge `n` from the argument arrays: positions `x0`, charges `x1`, the edge list `x2`, and the raw
    scalars `x5` (charge exponent), `x6` (length scale), `x7` (four coefficients), `x8` (four exponents). -/
def edgeAt (x0 : (⟨S100000x3, .f32⟩ : BufTy).Contents (Elt Ideal)) (x1 : (⟨S100000, .i32⟩ : BufTy).Contents (Elt Ideal))
    (x2 : (⟨S2x6400000, .i32⟩ : BufTy).Contents (Elt Ideal)) (x5 x6 : (⟨S1, .f32⟩ : BufTy).Contents (Elt Ideal))
    (x7 x8 : (⟨S4x1, .f32⟩ : BufTy).Contents (Elt Ideal)) (n : ℕ) : EReal :=
  if h : n < 6400000 then
    edgeR (val_main_v36 (F := Ideal) x0 x2 (ix1 ⟨n, h⟩)) (val_main_v11 (F := Ideal) x1 x2 (ix1 ⟨n, h⟩))
      (val_main_v18 (F := Ideal) x1 x2 (ix1 ⟨n, h⟩)) (val_main_v47 (F := Ideal) x5 (ix1 0)) (val_main_v48 (F := Ideal) x6 (ix1 0))
      (fun k => val_main_v49 (F := Ideal) x7 (ix2 k 0)) (fun k => val_main_v50 (F := Ideal) x8 (ix2 k 0))
      (val_main_v73 (F := Ideal) x2 (ix1 ⟨n, h⟩))
  else 0

/-- The closing scale: `0 + Σ_j ((0.5 · rs j) · 14.3996) · (0 + total)` over the one entry `j` of `rs`. -/
def finalOf (rs : (⟨1, ![1]⟩ : Shape).Idx → EReal) (tot : EReal) : EReal :=
  Ideal.ofBits .f32 0x00000000#32
    + ∑ j : (⟨1, ![1]⟩ : Shape).Idx,
        ((Ideal.ofBits .f32 0x3F000000#32 * rs j) * Ideal.ofBits .f32 0x416664C3#32) * (Ideal.ofBits .f32 0x00000000#32 + tot)

/-- The value both programs end with, from the argument arrays. -/
def result (x0 : (⟨S100000x3, .f32⟩ : BufTy).Contents (Elt Ideal)) (x1 : (⟨S100000, .i32⟩ : BufTy).Contents (Elt Ideal))
    (x2 : (⟨S2x6400000, .i32⟩ : BufTy).Contents (Elt Ideal)) (x5 x6 : (⟨S1, .f32⟩ : BufTy).Contents (Elt Ideal))
    (x7 x8 : (⟨S4x1, .f32⟩ : BufTy).Contents (Elt Ideal)) (x9 : (⟨S1, .f32⟩ : BufTy).Contents (Elt Ideal)) : EReal :=
  finalOf (val_main_v51 (F := Ideal) x9) (∑ e : Fin 6400000, edgeAt x0 x1 x2 x5 x6 x7 x8 e.val)

end Cert.ZBL

end
-- ==== Proof.KTail.lean ====
/-
  After the region: the sum of the output array, scaled.

  The host lines after the region sum the [16, 128] output array from zero, multiply by `0.5 · rs · 14.3996` and sum the
  one resulting entry from zero. The array holds the two halves' running totals at entries (0, 0) and (8, 0) and
  zeros elsewhere, so its sum is the two totals added.
-/
import proofs.«159565_j59622736003517_2_alg».proof.Proof.KArray
import proofs.«159565_j59622736003517_2_alg».proof.Proof.KPayload
import proofs.«159565_j59622736003517_2_alg».proof.Proof.Shared
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen

section Term
variable {F : FTy → Type} [FloatOps F]
variable (m : (ℓ : Loc nD τ sig) → Buf (Elt F) ℓ)

/-- The result buffer after the host lines that follow the region, as their composed term of the output array and
    of the softplus of the last scalar argument. -/
theorem tail_term (c : Dev nD) :
    Pipeline.afterTail₀ cfgs (dats m) 0 (V0 m) [hostOps1] c main_v73
      = Host.reduceAdd
          (mulf (mulf (mulf (broadcastInDim S1 ![] bcast_S_S1 (constant S_ .f32 0x3F000000#32)) (V m c main_v9))
              (broadcastInDim S1 ![] bcast_S_S1 (constant S_ .f32 0x416664C3#32)))
            (broadcastInDim S1 ![] bcast_S_S1
              (Host.reduceAdd (outArr m c) (constant S_ .f32 0x00000000#32) reducesTo_S16x128_S_d0_1 h_S_)))
          (constant S_ .f32 0x00000000#32) reducesTo_S1_S_d0 h_S_ := by
  unfold Pipeline.afterTail₀
  show StableHlo.after hostOps1 _ (Proc.devRef .tc main_v73) = _
  after_results
  have e9 : Pipeline.withArrays (cfgs 0).spec c (V0 m c) (fun w => (dats m 0 c).arrAt w (cfgs 0).N) (Proc.devRef .tc main_v9)
      = V m c main_v9 :=
    Pipeline.withArrays_of_ne _ c (V0 m c) _ main_v9 (by exact (by decide : ∀ w, Pipeline.arrRef spec0 w ≠ main_v9))
  have e65 : Pipeline.withArrays (cfgs 0).spec c (V0 m c) (fun w => (dats m 0 c).arrAt w (cfgs 0).N) (Proc.devRef .tc main_v65)
      = outArr m c :=
    (Pipeline.withArrays_arr spec0 launch0.win.arr_inj c _ _ 6).trans (final_out m c)
  rw [e9, e65]

end Term

section IdealValue
variable (m : (ℓ : Loc nD τ sig) → Buf (Elt Ideal) ℓ)

/-- The output array as a function of its index into the extended reals. -/
abbrev outE (c : Dev nD) : S16x128.Idx → EReal := outArr m c

/-- An entry of the output array: the half's running total at the first entry of its block, zero elsewhere. -/
theorem outArr_apply (c : Dev nD) (a : Fin 16) (b : Fin 128) :
    outE m c (ix2 a b)
      = if a.val % 8 = 0 ∧ b.val = 0 then
          (if a.val < 8 then acc m c 4 lt4 (ix2 0 0) else acc m c 9 lt9 (ix2 0 0)) else 0 := by
  show (if a.val < 8 then
      k0_pay2 (acc m c 4 lt4) (ix2 (⟨a.val % 8, Nat.mod_lt _ (by decide)⟩ : Fin 8) (⟨b.val, b.isLt⟩ : Fin 128))
    else
      k0_pay2 (acc m c 9 lt9) (ix2 (⟨a.val % 8, Nat.mod_lt _ (by decide)⟩ : Fin 8) (⟨b.val, b.isLt⟩ : Fin 128))) = _
  by_cases h : a.val < 8
  · rw [if_pos h]
    refine (Cert.ZBL.pay2_apply (acc m c 4 lt4) ⟨a.val % 8, Nat.mod_lt _ (by decide)⟩ ⟨b.val, b.isLt⟩).trans ?_
    simp only [h, if_true, Ideal.ofBits_zero_f32]
  · rw [if_neg h]
    refine (Cert.ZBL.pay2_apply (acc m c 9 lt9) ⟨a.val % 8, Nat.mod_lt _ (by decide)⟩ ⟨b.val, b.isLt⟩).trans ?_
    simp only [h, if_false, Ideal.ofBits_zero_f32]

/-- The sum of the output array is the two halves' running totals added. -/
theorem out_sum (c : Dev nD) :
    ∑ i : S16x128.Idx, outE m c i = acc m c 4 lt4 (ix2 0 0) + acc m c 9 lt9 (ix2 0 0) := by
  rw [sum_idx2]
  have inner : ∀ a : Fin 16, ∑ b : Fin 128, outE m c (ix2 a b)
      = if a.val % 8 = 0 then (if a.val < 8 then acc m c 4 lt4 (ix2 0 0) else acc m c 9 lt9 (ix2 0 0)) else 0 := by
    intro a
    rw [Finset.sum_eq_single (0 : Fin 128)]
    · rw [outArr_apply]
      by_cases ha : a.val % 8 = 0
      · rw [if_pos ⟨ha, rfl⟩, if_pos ha]
      · rw [if_neg (fun h => ha h.1), if_neg ha]
    · intro b _ hb
      rw [outArr_apply, if_neg]
      rintro ⟨_, h⟩
      exact hb (Fin.ext h)
    · intro h; exact absurd (Finset.mem_univ _) h
  simp only [inner]
  rw [Finset.sum_eq_add (0 : Fin 16) (8 : Fin 16) (by decide)]
  · have e0 : ((0 : Fin 16).val) = 0 := rfl
    have e8 : ((8 : Fin 16).val) = 8 := rfl
    rw [e0, e8]
    rw [if_pos (by decide), if_pos (by decide), if_pos (by decide), if_neg (by decide)]
  · intro a _ h
    rw [if_neg]
    intro h8
    have ha := a.isLt
    rcases h with ⟨h0, h1⟩
    have : a.val = 0 ∨ a.val = 8 := by omega
    rcases this with e | e
    · exact h0 (Fin.ext e)
    · exact h1 (Fin.ext e)
  · intro h; exact absurd (Finset.mem_univ _) h
  · intro h; exact absurd (Finset.mem_univ _) h

/-- The result after the tail: the closing scale of the two running totals added. -/
theorem tail_value (c : Dev nD) (i : S_.Idx) :
    (Pipeline.afterTail₀ cfgs (dats m) 0 (V0 m) [hostOps1] c main_v73 : S_.Idx → EReal) i
      = Cert.ZBL.finalOf (V m c main_v9) (acc m c 4 lt4 (ix2 0 0) + acc m c 9 lt9 (ix2 0 0)) := by
  rw [tail_term]
  have hb : ∀ (y : S_.Idx → EReal) (j : S1.Idx), broadcastInDim S1 ![] bcast_S_S1 y j = y ix0 :=
    fun y j => broadcastInDim_apply _ bcast_S_S1 y j ix0 (fun a => a.elim0)
  simp only [Host.reduceAdd, Ideal.hostReduceAdd_def]
  rw [Ideal.hostReduceAdd_total reducesTo_S1_S_d0 (fun b => b.elim0)]
  unfold Cert.ZBL.finalOf
  refine congrArg (_ + ·) (Finset.sum_congr rfl fun j _ => ?_)
  rw [mulf_apply, mulf_apply, mulf_apply, hb, hb, hb, constant_apply, constant_apply]
  rw [Ideal.hostReduceAdd_total reducesTo_S16x128_S_d0_1 (fun b => b.elim0)]
  show _ * (_ + ∑ i : S16x128.Idx, outE m c i) = _
  rw [out_sum]
  rfl

end IdealValue

end Cert.KernelIdeal.RegionValue

end
-- ==== Proof.KRun.lean ====
/-
  The kernel program's run, with its result named.

  Every weakly fair execution of the program terminates without a fault; the result buffer ends at what the host
  lines after the region compute from the region's output array, and the argument arrays end unchanged. This is the
  generated frame run with the result buffer's clause read off beside the arguments'.
-/
import proofs.«159565_j59622736003517_2_alg».proof.Proof.Gen.KernelIdeal.Frame

noncomputable section

open Idealize.ShloMosaic Idealize.ShloMosaic.TcCoe Idealize.SL.Sem
open Idealize.ShloMosaic.Pipeline (Dat)

namespace Cert.KernelIdeal.RegionValue

open Cert.KernelIdeal Cert.KernelIdeal.Gen

variable {F : FTy → Type} [FloatOps F]
variable (m : (ℓ : Loc nD τ sig) → Buf (Elt F) ℓ) (ρ : Dev nD → PrngReg)

/-- The run: the result buffer at the tail's value of the region's arrays, the arguments unchanged. -/
theorem run_tail : θ_run defs (onTc (τ := τ) (main (F := F))) ⟨m, fun _ => 0, ρ⟩ (fun r => ∀ c : Dev nD,
      r.2.mem ((c.tc : Thread nD τ).loc main_v73) = Pipeline.afterTail₀ cfgs (dats m) 0 (V0 m) [hostOps1] c main_v73
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).2 main_v73 (Pipeline.mem_restRefs_of main_v73 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩) (run_main m ρ)

end Cert.KernelIdeal.RegionValue

end
-- ==== Proof.EdgeLaw.lean ====
/-
  The two spellings of the per-edge energy agree on every extended real.

  The kernel's spelling folds `π / 6` into one constant, adds the four screening terms left to right, and masks the
  charge product before dividing; the plain formula multiplies by `π`, divides by `6`, sums the four terms from
  zero, and multiplies by the mask at the end. The agreement needs only: the values of five literals; that dividing
  by the real `6` is multiplying by `1/6` (at the infinities too); that `0 - x = -x`; that a four-term sum from zero is
  the left-to-right sum; and that the clamped distance is never zero, so that a zero numerator gives a zero quotient.
  Commutativity and associativity of `+` and `*` on the extended reals are used; distributivity is not.
-/
import proofs.«159565_j59622736003517_2_alg».proof.Proof.Spec

noncomputable section

namespace Cert.ZBL

open Idealize.ShloMosaic

/-! ## The literals -/

/-- The pattern of `+0.0` denotes `0`. -/
theorem ofBits_zero : Ideal.ofBits .f32 0x00000000#32 = 0 := by
  simp [Ideal.ofBits, Ideal.ieee]

/-- The pattern of `6.0` denotes the real `6`. -/
theorem ofBits_six : Ideal.ofBits .f32 0x40C00000#32 = ((6 : ℝ) : EReal) := by
  simp [Ideal.ofBits, Ideal.ieee, -EReal.coe_mul]; norm_num

/-- The pattern of the lower clamp `0.02` denotes the real `10737418 · 2⁻²⁹ = 5368709 / 268435456`. -/
theorem ofBits_lo : Ideal.ofBits .f32 0x3CA3D70A#32 = ((5368709 / 268435456 : ℝ) : EReal) := by
  simp [Ideal.ofBits, Ideal.ieee, -EReal.coe_mul]; norm_num

/-- The pattern of the single-precision `π` denotes the real `13176795 · 2⁻²²`. -/
theorem ofBits_pi : Ideal.ofBits .f32 0x40490FDB#32 = ((13176795 / 4194304 : ℝ) : EReal) := by
  simp [Ideal.ofBits, Ideal.ieee, -EReal.coe_mul]; norm_num

/-- The pattern of the folded constant denotes the real `4392265 · 2⁻²³`, which is exactly a sixth of the `π` literal
    because `13176795 = 3 · 4392265`. -/
theorem ofBits_pi6 : Ideal.ofBits .f32 0x3F060A92#32 = ((4392265 / 8388608 : ℝ) : EReal) := by
  simp [Ideal.ofBits, Ideal.ieee, -EReal.coe_mul]; norm_num

/-! ## The clamped distance is positive -/

/-- The clamped distance lies above the positive lower clamp and the upper clamp is positive, so it is positive. -/
theorem clampR_pos (dr : EReal) : 0 < clampR dr := by
  unfold clampR
  rw [ofBits_six, ofBits_lo]
  refine lt_min ?_ (lt_max_of_lt_left ?_)
  · exact EReal.coe_pos.mpr (by norm_num)
  · exact EReal.coe_pos.mpr (by norm_num)

/-- The clamped distance is never zero. -/
theorem clampR_ne_zero (dr : EReal) : clampR dr ≠ 0 := (clampR_pos dr).ne'

/-! ## The small identities -/

/-- The cosine's argument: `(π · d) / 6 = d · (π / 6)` for every extended real `d`, with the literals' exact values. -/
theorem cos_arg (d : EReal) :
    Ideal.div (Ideal.ofBits .f32 0x40490FDB#32 * d) (Ideal.ofBits .f32 0x40C00000#32)
      = d * Ideal.ofBits .f32 0x3F060A92#32 := by
  rw [ofBits_pi, ofBits_six, ofBits_pi6, Ideal.div_coe (by norm_num : (6 : ℝ) ≠ 0), mul_comm _ d, mul_assoc,
    ← EReal.coe_mul]
  norm_num

/-- Subtracting from the zero literal is negation. -/
theorem zero_lit_sub (x : EReal) : Ideal.ofBits .f32 0x00000000#32 - x = -x := by
  rw [ofBits_zero, sub_eq_add_neg, zero_add]

/-- A four-term sum started from the zero literal is the left-to-right sum of the four terms. -/
theorem sum_four (t : Fin 4 → EReal) :
    Ideal.ofBits .f32 0x00000000#32 + ∑ k : Fin 4, t k = ((t 0 + t 1) + t 2) + t 3 := by
  rw [ofBits_zero, zero_add, Fin.sum_univ_four]

/-- A zero numerator over the clamped distance is zero, because the clamped distance is not zero. -/
theorem zero_div_clampR (dr : EReal) : Ideal.div 0 (clampR dr) = 0 := by
  rw [Ideal.div, if_neg (clampR_ne_zero dr), zero_mul]

/-! ## The two spellings agree -/

/-- The kernel's per-edge energy, fed the sum of the two powers and the masked charge product, is the plain formula's
    per-edge energy, for all extended reals and both values of the mask bit. -/
theorem edge_eq (dr zi zj ae an : EReal) (c e : Fin 4 → EReal) (ne : BitVec 1) :
    edgeK dr (Ideal.pow zi ae + Ideal.pow zj ae) (maskedZZ zi zj ne) an c e = edgeR dr zi zj ae an c e ne := by
  unfold edgeK edgeR
  rw [cos_arg, sum_four]
  simp only [zero_lit_sub]
  rcases BitVec.eq_zero_or_eq_one ne with h | h
  · -- a self edge: both sides are zero
    subst h
    have hm : maskedZZ zi zj 0#1 = 0 := by
      unfold maskedZZ
      rw [if_neg (by decide), ofBits_zero]
    have hn : (((0#1 : BitVec 1).toNat : ℝ) : EReal) = 0 := by
      rw [show (0#1 : BitVec 1).toNat = 0 from rfl, Nat.cast_zero, EReal.coe_zero]
    rw [hm, zero_div_clampR, zero_mul, zero_mul, hn, mul_zero]
  · -- distinct endpoints: the mask is the factor one
    subst h
    have hm : maskedZZ zi zj 1#1 = zi * zj := by
      unfold maskedZZ
      rw [if_pos (by decide)]
    have hn : (((1#1 : BitVec 1).toNat : ℝ) : EReal) = 1 := by
      rw [show (1#1 : BitVec 1).toNat = 1 from rfl, Nat.cast_one, EReal.coe_one]
    rw [hm, hn, mul_one]

end Cert.ZBL

end
-- ==== Proof.LibGatherAt.lean ====
/-
  Two gathers read at an index, for start indices laid out as a column `[R, 1]`.

  `x[idx]` of a flat array `x : [N]` at an integer column `idx : [R, 1]` (collapsed axis 0, start index map `[0]`,
  slice sizes `[1]`, the index vector on axis 1) reads, at result index `r`, the operand at the start index `idx[r, 0]`
  taken as a signed integer and clamped into `[0, N - 1]`. The same column of start indices applied to the SECOND axis of a
  matrix `x : [K, N]` (offset axis 0 of the result, collapsed axis 1, start index map `[1]`, slice sizes `[K, 1]`) picks
  whole columns: result element `(k, r)` is `x` at `(k, clamp idx[r, 0])`.
-/
import Idealize.ShloMosaic.Lib.ValueIdx

noncomputable section

namespace Idealize.ShloMosaic.ValueIdx

open Idealize.ShloMosaic

section GatherAt
variable {α : Type}

/-- The dimension numbers of an element gather from `[N]` by a column `[R, 1]` of start indices into `[R]`. -/
abbrev elemDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The element gather at `r`: the operand at the start index `idx[r, 0]`, read signed and clamped into `[0, N - 1]`. -/
theorem gather_elem_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (elemDims N R wf) x idx (ix1 r)
      = x (ix1 ⟨min (idx (ix2 r (0 : Fin 1))).toInt.toNat (N - 1), by omega⟩) := by
  unfold Host.gather
  congr 1
  funext a
  obtain rfl : a = 0 := Subsingleton.elim _ _
  refine Fin.ext ?_
  show (elemDims N R wf).start (ix1 r) idx 0 + (elemDims N R wf).batchCoord (ix1 r) 0 + (elemDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemDims N R wf).startIndexMap from List.mem_singleton.mpr rfl)]
  have hsi : (elemDims N R wf).siIdx (ix1 r) ⟨List.idxOf (0 : Fin 1) (elemDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- The element gather at `r`, the start word named. -/
theorem gather_elem_apply_of {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) (s : BitVec w)
    (hs : idx (ix2 r (0 : Fin 1)) = s) :
    Host.gather (elemDims N R wf) x idx (ix1 r) = x (ix1 ⟨min s.toInt.toNat (N - 1), by omega⟩) := by
  subst hs
  exact gather_elem_apply hN wf x idx r

/-- The dimension numbers of a column gather from `[K, N]` by a column `[R, 1]` of start indices into `[K, R]`. -/
abbrev colDims (K N R : Nat)
    (wf : GatherDims.WF ⟨2, ![K, N]⟩ ⟨2, ![R, 1]⟩ ⟨2, ![K, R]⟩ [0] [1] [] [1] [] 1 ![K, 1]) :
    GatherDims ⟨2, ![K, N]⟩ ⟨2, ![R, 1]⟩ ⟨2, ![K, R]⟩ where
  offsetDims := [0]
  collapsedSliceDims := [1]
  operandBatchingDims := []
  startIndicesBatchingDims := []
  startIndexMap := [1]
  indexVectorDim := 1
  sliceSizes := ![K, 1]
  wf := wf

/-- The column gather at `(k, r)`: the operand at row `k` and the column the start index `idx[r, 0]` names, read signed
    and clamped into `[0, N - 1]`. -/
theorem gather_col_apply {K N R w : Nat} (hN : 0 < N)
    (wf : GatherDims.WF ⟨2, ![K, N]⟩ ⟨2, ![R, 1]⟩ ⟨2, ![K, R]⟩ [0] [1] [] [1] [] 1 ![K, 1])
    (x : (⟨2, ![K, N]⟩ : Shape).Idx → α) (idx : IVec ⟨2, ![R, 1]⟩ w) (k : Fin K) (r : Fin R) :
    Host.gather (colDims K N R wf) x idx (ix2 k r)
      = x (ix2 k ⟨min (idx (ix2 r (0 : Fin 1))).toInt.toNat (N - 1), by omega⟩) := by
  have h0 : ((colDims K N R wf).operandIdx (ix2 k r) idx (0 : Fin 2)).val = k.val := by
    show (colDims K N R wf).start (ix2 k r) idx (0 : Fin 2) + (colDims K N R wf).batchCoord (ix2 k r) (0 : Fin 2)
      + (colDims K N R wf).offCoord (ix2 k r) (0 : Fin 2) = _
    rw [GatherDims.batchCoord_eq_zero _ _ _ List.not_mem_nil]
    unfold GatherDims.start
    rw [dif_neg (show (0 : Fin 2) ∉ (colDims K N R wf).startIndexMap from fun h => Fin.zero_ne_one (List.mem_singleton.mp h))]
    unfold GatherDims.offCoord
    rw [dif_pos ((GatherDims.mem_sKept _ _).mpr ⟨fun h => Fin.zero_ne_one (List.mem_singleton.mp h), List.not_mem_nil⟩)]
    refine (Nat.zero_add _).trans ?_
    rfl
  have h1 : ((colDims K N R wf).operandIdx (ix2 k r) idx (1 : Fin 2)).val
      = min (idx (ix2 r (0 : Fin 1))).toInt.toNat (N - 1) := by
    show (colDims K N R wf).start (ix2 k r) idx (1 : Fin 2) + (colDims K N R wf).batchCoord (ix2 k r) (1 : Fin 2)
      + (colDims K N R wf).offCoord (ix2 k r) (1 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims K N R wf).startIndexMap from List.mem_singleton.mpr rfl)]
    have hsi : (colDims K N R wf).siIdx (ix2 k r) ⟨List.idxOf (1 : Fin 2) (colDims K N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  unfold Host.gather
  congr 1
  funext a
  refine Fin.ext ?_
  match a with
  | ⟨0, _⟩ => exact h0
  | ⟨1, _⟩ => exact h1

/-- The column gather at `(k, r)`, the start word named. -/
theorem gather_col_apply_of {K N R w : Nat} (hN : 0 < N)
    (wf : GatherDims.WF ⟨2, ![K, N]⟩ ⟨2, ![R, 1]⟩ ⟨2, ![K, R]⟩ [0] [1] [] [1] [] 1 ![K, 1])
    (x : (⟨2, ![K, N]⟩ : Shape).Idx → α) (idx : IVec ⟨2, ![R, 1]⟩ w) (k : Fin K) (r : Fin R) (s : BitVec w)
    (hs : idx (ix2 r (0 : Fin 1)) = s) :
    Host.gather (colDims K N R wf) x idx (ix2 k r) = x (ix2 k ⟨min s.toInt.toNat (N - 1), by omega⟩) := by
  subst hs
  exact gather_col_apply hN wf x idx k r

end GatherAt

end Idealize.ShloMosaic.ValueIdx

end
-- ==== Proof.KPrologueTerms.lean ====
/-
  What the arrays handed to the kernel hold, as whole arrays, in terms of the reference's host quantities.

  Before the kernel runs, the program computes on the host: the two rows of the edge list, the charges as reals, the
  softplus of the five learned scalars, the per-edge distance, `z_i ^ a + z_j ^ a` per edge and the masked charge product
  per edge, the last three reshaped from 6400000 entries to 50000 rows of 128. Each of these is, operation by operation,
  the same composition of the same host operations on the same arguments as the corresponding quantity of the reference
  program, so each equation below holds by unfolding both sides.
-/
import proofs.«159565_j59622736003517_2_alg».proof.Proof.Shared
import proofs.«159565_j59622736003517_2_alg».proof.Proof.Gen.KernelIdeal.Frame
import proofs.«159565_j59622736003517_2_alg».proof.Proof.LibGatherAt

set_option maxRecDepth 16384

noncomputable section

namespace Cert.ZBL

open Idealize.ShloMosaic Idealize.ShloMosaic.TcCoe Idealize.ShloMosaic.ValueIdx Idealize.ShloMosaic.StableHlo
open Cert.KernelIdeal Cert.KernelIdeal.Gen

variable (m : (ℓ : Loc Cert.KernelIdeal.nD Cert.KernelIdeal.τ Cert.KernelIdeal.sig) → Buf (Elt Ideal) ℓ) (c : Dev Cert.KernelIdeal.nD)

/-- The distance array the kernel reads is the reference's per-edge distance `|R[j] - R[i]|`, laid out as 50000 rows of 128. -/
theorem V62_eq : (Gen.V m c main_v62 : S50000x128.Idx → EReal)
    = shapeCast _ (Cert.ReferenceIdeal.Read.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2))) shapeCasts_S6400000_S50000x128 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- The second array the kernel reads is `z_i ^ a + z_j ^ a` per edge: the charges as reals raised entrywise to the softplus of the
    exponent parameter, gathered at the two (normalised) endpoints of each edge and added, laid out as 50000 rows of 128. -/
theorem V63_eq : (Gen.V m c main_v63 : S50000x128.Idx → EReal)
    = shapeCast _ (addf (F := Ideal) (s := S6400000) (φ := .f32)
        (Host.gather gather_S100000_S6400000x1_S6400000_n_0_n_n_0_1_1
          (Host.powf (F := Ideal) (Cert.ReferenceIdeal.Read.val_main_v4 (F := Ideal) (m ((c.tc : Thread Cert.KernelIdeal.nD Cert.KernelIdeal.τ).loc Cert.KernelIdeal.main_arg1)))
            (broadcastInDim S100000 ![0] bcast_S1_S100000_0 (Cert.ReferenceIdeal.Read.val_main_v47 (F := Ideal) (m ((c.tc : Thread Cert.KernelIdeal.nD Cert.KernelIdeal.τ).loc Cert.KernelIdeal.main_arg5)))))
          (Cert.ReferenceIdeal.Read.val_main_v10 (F := Ideal) (m ((c.tc : Thread Cert.KernelIdeal.nD Cert.KernelIdeal.τ).loc Cert.KernelIdeal.main_arg2))))
        (Host.gather gather_S100000_S6400000x1_S6400000_n_0_n_n_0_1_1
          (Host.powf (F := Ideal) (Cert.ReferenceIdeal.Read.val_main_v4 (F := Ideal) (m ((c.tc : Thread Cert.KernelIdeal.nD Cert.KernelIdeal.τ).loc Cert.KernelIdeal.main_arg1)))
            (broadcastInDim S100000 ![0] bcast_S1_S100000_0 (Cert.ReferenceIdeal.Read.val_main_v47 (F := Ideal) (m ((c.tc : Thread Cert.KernelIdeal.nD Cert.KernelIdeal.τ).loc Cert.KernelIdeal.main_arg5)))))
          (Cert.ReferenceIdeal.Read.val_main_v17 (F := Ideal) (m ((c.tc : Thread Cert.KernelIdeal.nD Cert.KernelIdeal.τ).loc Cert.KernelIdeal.main_arg2))))) shapeCasts_S6400000_S50000x128 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- The third array the kernel reads is the masked charge product per edge: the product of the two gathered charges where the
    endpoints differ and zero on a self edge, laid out as 50000 rows of 128. -/
theorem V64_eq : (Gen.V m c main_v64 : S50000x128.Idx → EReal)
    = shapeCast _ (select (Cert.ReferenceIdeal.Read.val_main_v73 (F := Ideal) (m ((c.tc : Thread Cert.KernelIdeal.nD Cert.KernelIdeal.τ).loc Cert.KernelIdeal.main_arg2)))
        (mulf (F := Ideal) (s := S6400000) (φ := .f32) (Cert.ReferenceIdeal.Read.val_main_v11 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Cert.ReferenceIdeal.Read.val_main_v18 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2))))
        (broadcastInDim S6400000 ![] bcast_S_S6400000 (constant (F := Ideal) S_ .f32 0x00000000#32))) shapeCasts_S6400000_S50000x128 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- The length-scale scalar the kernel reads is the reference's softplus of its parameter. -/
theorem V_an : Gen.V m c main_v6 = Cert.ReferenceIdeal.Read.val_main_v48 (F := Ideal) (m ((c.tc : Thread Cert.KernelIdeal.nD Cert.KernelIdeal.τ).loc Cert.KernelIdeal.main_arg6)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- The four screening coefficients the kernel reads are the reference's softplus of their parameters. -/
theorem V_c : Gen.V m c main_v7 = Cert.ReferenceIdeal.Read.val_main_v49 (F := Ideal) (m ((c.tc : Thread Cert.KernelIdeal.nD Cert.KernelIdeal.τ).loc Cert.KernelIdeal.main_arg7)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- The four screening exponents the kernel reads are the reference's softplus of their parameters. -/
theorem V_e : Gen.V m c main_v8 = Cert.ReferenceIdeal.Read.val_main_v50 (F := Ideal) (m ((c.tc : Thread Cert.KernelIdeal.nD Cert.KernelIdeal.τ).loc Cert.KernelIdeal.main_arg8)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- The closing scale's scalar is the reference's softplus of its parameter. -/
theorem V_rs : Gen.V m c main_v9 = Cert.ReferenceIdeal.Read.val_main_v51 (F := Ideal) (m ((c.tc : Thread Cert.KernelIdeal.nD Cert.KernelIdeal.τ).loc Cert.KernelIdeal.main_arg9)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

end Cert.ZBL

end
-- ==== Proof.KPrologue.lean ====
/-
  What the arrays handed to the kernel hold, index by index, in terms of the reference's per-edge quantities.

  The three edge streams are flat arrays of 6400000 entries viewed as 50000 rows of 128, so entry `(R, l)` is edge
  `128 R + l`. At that edge: the first stream is the reference's distance; the third is the product of the two gathered
  charges where the endpoints differ and zero otherwise, which is the masked product; and the second is a sum of two
  gathers from the array `z ^ a` of powers of the charges. A gather reads the position its index array names, clamped,
  whatever the operand, so gathering from `z ^ a` is raising the gathered charge to `a`: the second stream is
  `z_i ^ a + z_j ^ a` over the reference's gathered charges.
-/
import proofs.«159565_j59622736003517_2_alg».proof.Proof.KPrologueTerms
import Idealize.ShloMosaic.Lib.Pipeline.Value

set_option maxRecDepth 16384

noncomputable section

namespace Cert.ZBL

open Idealize.ShloMosaic Idealize.ShloMosaic.TcCoe Idealize.ShloMosaic.ValueIdx
open Cert.KernelIdeal Cert.KernelIdeal.Gen

/-- A flat array of 6400000 entries viewed as 50000 rows of 128: entry `(R, l)` of the view is entry `128 R + l`. -/
theorem reshape_rows_apply {α : Type} (y : (⟨1, ![6400000]⟩ : Shape).Idx → α)
    (h : (⟨1, ![6400000]⟩ : Shape).ShapeCasts ⟨2, ![50000, 128]⟩) (R : Fin 50000) (l : Fin 128) :
    shapeCast (⟨2, ![50000, 128]⟩ : Shape) y h (ix2 R l) = y (ix1 ⟨R.val * 128 + l.val, by omega⟩) :=
  shapeCast_apply y h (ix2 R l) (ix1 ⟨R.val * 128 + l.val, by omega⟩)
    (by rw [Shape.rowMajor_val_one, Shape.rowMajor_val_two]; rfl)

/-- A scalar broadcast to a flat array reads the scalar everywhere. -/
theorem bcast_scalar_apply {α : Type} {n : Nat} (h : (⟨0, ![]⟩ : Shape).BroadcastsInDim ⟨1, ![n]⟩ ![])
    (x : (⟨0, ![]⟩ : Shape).Idx → α) (j : (⟨1, ![n]⟩ : Shape).Idx) :
    broadcastInDim (⟨1, ![n]⟩ : Shape) ![] h x j = x ix0 :=
  broadcastInDim_apply ![] h x j ix0 (fun a => a.elim0)

/-- A one-entry array broadcast along a flat array reads its one entry everywhere. -/
theorem bcast_one_apply {α : Type} {n : Nat} (h : (⟨1, ![1]⟩ : Shape).BroadcastsInDim ⟨1, ![n]⟩ ![0])
    (x : (⟨1, ![1]⟩ : Shape).Idx → α) (j : (⟨1, ![n]⟩ : Shape).Idx) :
    broadcastInDim (⟨1, ![n]⟩ : Shape) ![0] h x j = x (ix1 0) :=
  broadcastInDim_apply ![0] h x j (ix1 0) (fun a => match a with | ⟨0, _⟩ => rfl)

/-- Gathering from the entrywise power `z ^ a` (the exponent one shared entry) is the power of the gathered entry:
    the position a gather reads does not depend on the operand. -/
theorem gather_pow_apply {N R : Nat} (hN : 0 < N)
    (wf : GatherDims.WF ⟨1, ![N]⟩ ⟨2, ![R, 1]⟩ ⟨1, ![R]⟩ [] [0] [] [0] [] 1 ![1])
    (hb : (⟨1, ![1]⟩ : Shape).BroadcastsInDim ⟨1, ![N]⟩ ![0])
    (z : FVec Ideal ⟨1, ![N]⟩ .f32) (a : FVec Ideal ⟨1, ![1]⟩ .f32) (I : IVec ⟨2, ![R, 1]⟩ 32) (r : Fin R) :
    Host.gather (elemDims N R wf) (Host.powf z (broadcastInDim (⟨1, ![N]⟩ : Shape) ![0] hb a)) I (ix1 r)
      = Ideal.pow (Host.gather (elemDims N R wf) z I (ix1 r)) (a (ix1 0)) := by
  rw [gather_elem_apply hN, gather_elem_apply hN]
  show Ideal.pow (z _) (broadcastInDim (⟨1, ![N]⟩ : Shape) ![0] hb a _) = _
  rw [bcast_one_apply]

/-- The kernel program's record of the charge gather is the element gather from 100000 entries by a column of 6400000 indices. -/
theorem gatherK_eq : Cert.KernelIdeal.gather_S100000_S6400000x1_S6400000_n_0_n_n_0_1_1 = elemDims 100000 6400000 Cert.KernelIdeal.Gen.gather_S100000_S6400000x1_S6400000_n_0_n_n_0_1_1_wf := rfl

/-- So is the reference program's. -/
theorem gatherR_eq : Cert.ReferenceIdeal.gather_S100000_S6400000x1_S6400000_n_0_n_n_0_1_1 = elemDims 100000 6400000 Cert.ReferenceIdeal.Gen.gather_S100000_S6400000x1_S6400000_n_0_n_n_0_1_1_wf := rfl

variable (m : (ℓ : Loc Cert.KernelIdeal.nD Cert.KernelIdeal.τ Cert.KernelIdeal.sig) → Buf (Elt Ideal) ℓ) (c : Dev Cert.KernelIdeal.nD)

/-- Entry `(R, l)` of the distance stream is the reference's distance of edge `128 R + l`. -/
theorem V_dr (R : Fin 50000) (l : Fin 128) :
    (Gen.V m c main_v62 : S50000x128.Idx → EReal) (ix2 R l)
      = Cert.ReferenceIdeal.Read.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (ix1 ⟨R.val * 128 + l.val, by omega⟩) :=
  (congrFun (V62_eq m c) (ix2 R l)).trans (reshape_rows_apply _ _ R l)

/-- Entry `(R, l)` of the second stream is `z_i ^ a + z_j ^ a` at edge `128 R + l`, over the reference's gathered charges and
    its softplus of the exponent parameter. -/
theorem V_adiv (R : Fin 50000) (l : Fin 128) :
    (Gen.V m c main_v63 : S50000x128.Idx → EReal) (ix2 R l)
      = Ideal.pow (Cert.ReferenceIdeal.Read.val_main_v11 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (ix1 ⟨R.val * 128 + l.val, by omega⟩)) (Cert.ReferenceIdeal.Read.val_main_v47 (F := Ideal) (m ((c.tc : Thread Cert.KernelIdeal.nD Cert.KernelIdeal.τ).loc Cert.KernelIdeal.main_arg5)) (ix1 0))
        + Ideal.pow (Cert.ReferenceIdeal.Read.val_main_v18 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (ix1 ⟨R.val * 128 + l.val, by omega⟩)) (Cert.ReferenceIdeal.Read.val_main_v47 (F := Ideal) (m ((c.tc : Thread Cert.KernelIdeal.nD Cert.KernelIdeal.τ).loc Cert.KernelIdeal.main_arg5)) (ix1 0)) := by
  refine (congrFun (V63_eq m c) (ix2 R l)).trans ?_
  refine (reshape_rows_apply _ _ R l).trans ?_
  rw [addf_apply, gatherK_eq, gather_pow_apply (by decide), gather_pow_apply (by decide)]
  unfold Cert.ReferenceIdeal.Read.val_main_v11 Cert.ReferenceIdeal.Read.val_main_v18
  rw [gatherR_eq]

/-- Entry `(R, l)` of the third stream is the masked charge product of edge `128 R + l`. -/
theorem V_zz (R : Fin 50000) (l : Fin 128) :
    (Gen.V m c main_v64 : S50000x128.Idx → EReal) (ix2 R l)
      = maskedZZ (Cert.ReferenceIdeal.Read.val_main_v11 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (ix1 ⟨R.val * 128 + l.val, by omega⟩)) (Cert.ReferenceIdeal.Read.val_main_v18 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (ix1 ⟨R.val * 128 + l.val, by omega⟩))
          (Cert.ReferenceIdeal.Read.val_main_v73 (F := Ideal) (m ((c.tc : Thread Cert.KernelIdeal.nD Cert.KernelIdeal.τ).loc Cert.KernelIdeal.main_arg2)) (ix1 ⟨R.val * 128 + l.val, by omega⟩)) := by
  refine (congrFun (V64_eq m c) (ix2 R l)).trans ?_
  refine (reshape_rows_apply _ _ R l).trans ?_
  rw [select_apply, mulf_apply, bcast_scalar_apply, constant_apply]
  rfl

end Cert.ZBL

end
-- ==== Proof.KSum.lean ====
/-
  The running total over the grid is the running sum of the per-edge energies, block by block.

  At a grid point the scratch cell becomes its previous contents plus the total, over the point's block of 5000 rows
  of 128 lanes, of the per-edge energy in the spelling over three precombined streams. Point `t`'s blocks are rows
  `5000 t … 5000 t + 4999` of the three stream arrays (and the whole of the three small arrays), and entry `(R, l)` of a
  stream array holds the stream's value at edge `128 R + l`; so the term at row `r`, lane `l` of point `t` is the
  energy of edge `(5000 t + r) · 128 + l`, which in the plain formula's spelling is `edgeAt` of that edge. The point's
  total is therefore the block total `blockSum`, and, the cell being reset to zero at points 0 and 5, the cell after
  point `n` is the running accumulator `runSum` started from zero.
-/
import proofs.«159565_j59622736003517_2_alg».proof.Proof.KAcc
import proofs.«159565_j59622736003517_2_alg».proof.Proof.KPayload
import proofs.«159565_j59622736003517_2_alg».proof.Proof.EdgeLaw
import proofs.«159565_j59622736003517_2_alg».proof.Proof.Shared
import proofs.«159565_j59622736003517_2_alg».proof.Proof.KPrologue

noncomputable section

open scoped BigOperators

namespace Cert.ZBL

open Idealize.ShloMosaic Idealize.ShloMosaic.TcCoe Idealize.ShloMosaic.ValueIdx
open Cert.KernelIdeal Cert.KernelIdeal.Gen Cert.KernelIdeal.RegionValue

/-! ## One point: the previous contents plus the block's total -/

section Rows
variable (X : Vec Ideal S4x1 .f32)

/-- Row 0 of a `[4, 1]` column, loaded as a `[1, 1]` vector, reads the column's entry `(0, 0)`. -/
theorem ld_row0 : View.ld X (Rect.unit ![0, 0] ![1, 1] inb_S4x1_S1x1_0_0) (ix2 0 0) = X (ix2 0 0) :=
  congrArg X (funext fun a => Fin.ext (by match a with | ⟨0, _⟩ => rfl | ⟨1, _⟩ => rfl))

/-- Row 1 likewise reads entry `(1, 0)`. -/
theorem ld_row1 : View.ld X (Rect.unit ![1, 0] ![1, 1] inb_S4x1_S1x1_1_0) (ix2 0 0) = X (ix2 1 0) :=
  congrArg X (funext fun a => Fin.ext (by match a with | ⟨0, _⟩ => rfl | ⟨1, _⟩ => rfl))

/-- Row 2 likewise reads entry `(2, 0)`. -/
theorem ld_row2 : View.ld X (Rect.unit ![2, 0] ![1, 1] inb_S4x1_S1x1_2_0) (ix2 0 0) = X (ix2 2 0) :=
  congrArg X (funext fun a => Fin.ext (by match a with | ⟨0, _⟩ => rfl | ⟨1, _⟩ => rfl))

/-- Row 3 likewise reads entry `(3, 0)`. -/
theorem ld_row3 : View.ld X (Rect.unit ![3, 0] ![1, 1] inb_S4x1_S1x1_3_0) (ix2 0 0) = X (ix2 3 0) :=
  congrArg X (funext fun a => Fin.ext (by match a with | ⟨0, _⟩ => rfl | ⟨1, _⟩ => rfl))

end Rows

/-- One point leaves the previous contents plus the sum over the block's rows and lanes of the per-edge energy of the
    three stream blocks there, the length scale, and the four coefficients and four exponents of the two columns. -/
theorem step_apply (x0 x1 x2 : Vec Ideal S5000x128 .f32) (x3 : Vec Ideal S1 .f32) (x4 x5 : Vec Ideal S4x1 .f32)
    (xs : Vec Ideal S1x1 .f32) (y : S1x1.Idx) :
    step (F := Ideal) x0 x1 x2 x3 x4 x5 xs y
      = xs y + ∑ r : Fin 5000, ∑ l : Fin 128,
          edgeK (x0 (ix2 r l)) (x1 (ix2 r l)) (x2 (ix2 r l)) (x3 (ix1 0))
            ![x4 (ix2 0 0), x4 (ix2 1 0), x4 (ix2 2 0), x4 (ix2 3 0)]
            ![x5 (ix2 0 0), x5 (ix2 1 0), x5 (ix2 2 0), x5 (ix2 3 0)] := by
  unfold step
  refine (pay1_apply _ _ _ _ _ _ _ _ _ _ _ _ _ y).trans ?_
  rw [ld_row0 x4, ld_row1 x4, ld_row2 x4, ld_row3 x4, ld_row0 x5, ld_row1 x5, ld_row2 x5, ld_row3 x5]

/-! ## The blocks of a point, read off an array -/

section Blocks

/-- The first stream's block at point `t` is block row `t`, block column 0 … -/
theorem idx0_facts : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- … and so is the second stream's … -/
theorem idx1_facts : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
/-- … and the third's. -/
theorem idx2_facts : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
/-- The length scale's block is the whole one-entry array at every point. -/
theorem idx3_facts : ∀ t : Fin cfg0.N, win0_3.index t (0 : Fin 1) = 0 :=
  (by decide +kernel : ∀ t : Fin grid0.N, win0_3.index t (0 : Fin 1) = 0)
/-- The coefficient column's block is the whole column at every point … -/
theorem idx4_facts : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
/-- … and so is the exponent column's. -/
theorem idx5_facts : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

variable (c : Dev nD) (t : Fin cfg0.N)

/-- Row `r`, lane `l` of point `t`'s block of the first stream array `A` is row `5000 t + r`, lane `l` of `A`. -/
theorem read0_apply (A : Buf (Elt Ideal) ((c.tc : Thread nD τ).loc (Pipeline.arrRef spec0 0))) (r : Fin 5000) (l : Fin 128)
    (hR : t.val * 5000 + r.val < 50000) :
    ((cfg0.win 0).blk t).view.read (Elt Ideal) A (ix2 r l) = (A : S50000x128.Idx → EReal) (ix2 ⟨t.val * 5000 + r.val, hR⟩ l) := by
  show (A : S50000x128.Idx → EReal) (((cfg0.win 0).blk t).view.emb (ix2 r l)) = _
  refine congrArg A (funext fun a => Fin.ext ?_)
  match a with
  | ⟨0, _⟩ =>
    show win0_0.index t 0 * 5000 + 1 * r.val = t.val * 5000 + r.val
    rw [(idx0_facts t).1]; omega
  | ⟨1, _⟩ =>
    show win0_0.index t 1 * 128 + 1 * l.val = l.val
    rw [(idx0_facts t).2]; omega

/-- The same for the second stream array. -/
theorem read1_apply (A : Buf (Elt Ideal) ((c.tc : Thread nD τ).loc (Pipeline.arrRef spec0 1))) (r : Fin 5000) (l : Fin 128)
    (hR : t.val * 5000 + r.val < 50000) :
    ((cfg0.win 1).blk t).view.read (Elt Ideal) A (ix2 r l) = (A : S50000x128.Idx → EReal) (ix2 ⟨t.val * 5000 + r.val, hR⟩ l) := by
  show (A : S50000x128.Idx → EReal) (((cfg0.win 1).blk t).view.emb (ix2 r l)) = _
  refine congrArg A (funext fun a => Fin.ext ?_)
  match a with
  | ⟨0, _⟩ =>
    show win0_1.index t 0 * 5000 + 1 * r.val = t.val * 5000 + r.val
    rw [(idx1_facts t).1]; omega
  | ⟨1, _⟩ =>
    show win0_1.index t 1 * 128 + 1 * l.val = l.val
    rw [(idx1_facts t).2]; omega

/-- The same for the third stream array. -/
theorem read2_apply (A : Buf (Elt Ideal) ((c.tc : Thread nD τ).loc (Pipeline.arrRef spec0 2))) (r : Fin 5000) (l : Fin 128)
    (hR : t.val * 5000 + r.val < 50000) :
    ((cfg0.win 2).blk t).view.read (Elt Ideal) A (ix2 r l) = (A : S50000x128.Idx → EReal) (ix2 ⟨t.val * 5000 + r.val, hR⟩ l) := by
  show (A : S50000x128.Idx → EReal) (((cfg0.win 2).blk t).view.emb (ix2 r l)) = _
  refine congrArg A (funext fun a => Fin.ext ?_)
  match a with
  | ⟨0, _⟩ =>
    show win0_2.index t 0 * 5000 + 1 * r.val = t.val * 5000 + r.val
    rw [(idx2_facts t).1]; omega
  | ⟨1, _⟩ =>
    show win0_2.index t 1 * 128 + 1 * l.val = l.val
    rw [(idx2_facts t).2]; omega

/-- The length scale's block at any point reads the array's one entry. -/
theorem read3_apply (A : Buf (Elt Ideal) ((c.tc : Thread nD τ).loc (Pipeline.arrRef spec0 3))) :
    ((cfg0.win 3).blk t).view.read (Elt Ideal) A (ix1 (0 : Fin 1)) = (A : S1.Idx → EReal) (ix1 (0 : Fin 1)) := by
  show (A : S1.Idx → EReal) (((cfg0.win 3).blk t).view.emb (ix1 (0 : Fin 1))) = _
  refine congrArg A (funext fun a => Fin.ext ?_)
  match a with
  | ⟨0, _⟩ =>
    show win0_3.index t 0 * 1 + 1 * 0 = 0
    rw [idx3_facts t]

/-- The coefficient column's block at any point reads the column: entry `(k, 0)` is entry `(k, 0)`. -/
theorem read4_apply (A : Buf (Elt Ideal) ((c.tc : Thread nD τ).loc (Pipeline.arrRef spec0 4))) (k : Fin 4) :
    ((cfg0.win 4).blk t).view.read (Elt Ideal) A (ix2 k (0 : Fin 1)) = (A : S4x1.Idx → EReal) (ix2 k (0 : Fin 1)) := by
  show (A : S4x1.Idx → EReal) (((cfg0.win 4).blk t).view.emb (ix2 k (0 : Fin 1))) = _
  refine congrArg A (funext fun a => Fin.ext ?_)
  match a with
  | ⟨0, _⟩ =>
    show win0_4.index t 0 * 4 + 1 * k.val = k.val
    rw [(idx4_facts t).1]; omega
  | ⟨1, _⟩ =>
    show win0_4.index t 1 * 1 + 1 * 0 = 0
    rw [(idx4_facts t).2]

/-- The exponent column's likewise. -/
theorem read5_apply (A : Buf (Elt Ideal) ((c.tc : Thread nD τ).loc (Pipeline.arrRef spec0 5))) (k : Fin 4) :
    ((cfg0.win 5).blk t).view.read (Elt Ideal) A (ix2 k (0 : Fin 1)) = (A : S4x1.Idx → EReal) (ix2 k (0 : Fin 1)) := by
  show (A : S4x1.Idx → EReal) (((cfg0.win 5).blk t).view.emb (ix2 k (0 : Fin 1))) = _
  refine congrArg A (funext fun a => Fin.ext ?_)
  match a with
  | ⟨0, _⟩ =>
    show win0_5.index t 0 * 4 + 1 * k.val = k.val
    rw [(idx5_facts t).1]; omega
  | ⟨1, _⟩ =>
    show win0_5.index t 1 * 1 + 1 * 0 = 0
    rw [(idx5_facts t).2]

end Blocks

/-! ## A point's total is the block total of the per-edge energies -/

section Total
variable (x0 : (⟨Cert.ReferenceIdeal.S100000x3, .f32⟩ : BufTy).Contents (Elt Ideal))
  (x1 : (⟨Cert.ReferenceIdeal.S100000, .i32⟩ : BufTy).Contents (Elt Ideal))
  (x2 : (⟨Cert.ReferenceIdeal.S2x6400000, .i32⟩ : BufTy).Contents (Elt Ideal))
  (x5 x6 : (⟨Cert.ReferenceIdeal.S1, .f32⟩ : BufTy).Contents (Elt Ideal))
  (x7 x8 : (⟨Cert.ReferenceIdeal.S4x1, .f32⟩ : BufTy).Contents (Elt Ideal))

/-- At edge `n`, the energy in the spelling over three streams, fed the reference's distance, the sum of the two
    charge powers, the masked charge product, the length scale and the four coefficients and exponents, is the plain
    formula's energy of the edge. -/
theorem edgeK_read_eq_edgeAt (n : ℕ) (h : n < 6400000) :
    edgeK (Cert.ReferenceIdeal.Read.val_main_v36 (F := Ideal) x0 x2 (ix1 ⟨n, h⟩))
        (Ideal.pow (Cert.ReferenceIdeal.Read.val_main_v11 (F := Ideal) x1 x2 (ix1 ⟨n, h⟩)) (Cert.ReferenceIdeal.Read.val_main_v47 (F := Ideal) x5 (ix1 0))
          + Ideal.pow (Cert.ReferenceIdeal.Read.val_main_v18 (F := Ideal) x1 x2 (ix1 ⟨n, h⟩)) (Cert.ReferenceIdeal.Read.val_main_v47 (F := Ideal) x5 (ix1 0)))
        (maskedZZ (Cert.ReferenceIdeal.Read.val_main_v11 (F := Ideal) x1 x2 (ix1 ⟨n, h⟩)) (Cert.ReferenceIdeal.Read.val_main_v18 (F := Ideal) x1 x2 (ix1 ⟨n, h⟩))
          (Cert.ReferenceIdeal.Read.val_main_v73 (F := Ideal) x2 (ix1 ⟨n, h⟩)))
        (Cert.ReferenceIdeal.Read.val_main_v48 (F := Ideal) x6 (ix1 0))
        ![Cert.ReferenceIdeal.Read.val_main_v49 (F := Ideal) x7 (ix2 0 0), Cert.ReferenceIdeal.Read.val_main_v49 (F := Ideal) x7 (ix2 1 0),
          Cert.ReferenceIdeal.Read.val_main_v49 (F := Ideal) x7 (ix2 2 0), Cert.ReferenceIdeal.Read.val_main_v49 (F := Ideal) x7 (ix2 3 0)]
        ![Cert.ReferenceIdeal.Read.val_main_v50 (F := Ideal) x8 (ix2 0 0), Cert.ReferenceIdeal.Read.val_main_v50 (F := Ideal) x8 (ix2 1 0),
          Cert.ReferenceIdeal.Read.val_main_v50 (F := Ideal) x8 (ix2 2 0), Cert.ReferenceIdeal.Read.val_main_v50 (F := Ideal) x8 (ix2 3 0)]
      = edgeAt x0 x1 x2 x5 x6 x7 x8 n := by
  have hc : (![Cert.ReferenceIdeal.Read.val_main_v49 (F := Ideal) x7 (ix2 0 0), Cert.ReferenceIdeal.Read.val_main_v49 (F := Ideal) x7 (ix2 1 0),
        Cert.ReferenceIdeal.Read.val_main_v49 (F := Ideal) x7 (ix2 2 0), Cert.ReferenceIdeal.Read.val_main_v49 (F := Ideal) x7 (ix2 3 0)] : Fin 4 → EReal)
      = fun k => Cert.ReferenceIdeal.Read.val_main_v49 (F := Ideal) x7 (ix2 k 0) := by
    funext k
    match k with
    | ⟨0, _⟩ => rfl
    | ⟨1, _⟩ => rfl
    | ⟨2, _⟩ => rfl
    | ⟨3, _⟩ => rfl
  have he : (![Cert.ReferenceIdeal.Read.val_main_v50 (F := Ideal) x8 (ix2 0 0), Cert.ReferenceIdeal.Read.val_main_v50 (F := Ideal) x8 (ix2 1 0),
        Cert.ReferenceIdeal.Read.val_main_v50 (F := Ideal) x8 (ix2 2 0), Cert.ReferenceIdeal.Read.val_main_v50 (F := Ideal) x8 (ix2 3 0)] : Fin 4 → EReal)
      = fun k => Cert.ReferenceIdeal.Read.val_main_v50 (F := Ideal) x8 (ix2 k 0) := by
    funext k
    match k with
    | ⟨0, _⟩ => rfl
    | ⟨1, _⟩ => rfl
    | ⟨2, _⟩ => rfl
    | ⟨3, _⟩ => rfl
  unfold edgeAt
  rw [dif_pos h, hc, he]
  exact edge_eq _ _ _ _ _ _ _ _

/-- Equal arguments give equal energies. -/
theorem edgeK_congr {a a' b b' z z' d d' : EReal} {f f' g g' : Fin 4 → EReal}
    (ha : a = a') (hb : b = b') (hz : z = z') (hd : d = d') (hf : f = f') (hg : g = g') :
    edgeK a b z d f g = edgeK a' b' z' d' f' g' := by
  subst ha hb hz hd hf hg; rfl

/-- Equal entries give equal four-entry vectors. -/
theorem vec4_congr {a0 a1 a2 a3 b0 b1 b2 b3 : EReal} (h0 : a0 = b0) (h1 : a1 = b1) (h2 : a2 = b2) (h3 : a3 = b3) :
    (![a0, a1, a2, a3] : Fin 4 → EReal) = ![b0, b1, b2, b3] := by
  subst h0 h1 h2 h3; rfl

section Generic
variable (c : Dev nD)
  (A0 : Buf (Elt Ideal) ((c.tc : Thread nD τ).loc (Pipeline.arrRef spec0 0)))
  (A1 : Buf (Elt Ideal) ((c.tc : Thread nD τ).loc (Pipeline.arrRef spec0 1)))
  (A2 : Buf (Elt Ideal) ((c.tc : Thread nD τ).loc (Pipeline.arrRef spec0 2)))
  (A3 : Buf (Elt Ideal) ((c.tc : Thread nD τ).loc (Pipeline.arrRef spec0 3)))
  (A4 : Buf (Elt Ideal) ((c.tc : Thread nD τ).loc (Pipeline.arrRef spec0 4)))
  (A5 : Buf (Elt Ideal) ((c.tc : Thread nD τ).loc (Pipeline.arrRef spec0 5)))
  (hdr : ∀ (R : Fin 50000) (l : Fin 128), (A0 : S50000x128.Idx → EReal) (ix2 R l)
      = Cert.ReferenceIdeal.Read.val_main_v36 (F := Ideal) x0 x2 (ix1 ⟨R.val * 128 + l.val, by omega⟩))
  (hadiv : ∀ (R : Fin 50000) (l : Fin 128), (A1 : S50000x128.Idx → EReal) (ix2 R l)
      = Ideal.pow (Cert.ReferenceIdeal.Read.val_main_v11 (F := Ideal) x1 x2 (ix1 ⟨R.val * 128 + l.val, by omega⟩)) (Cert.ReferenceIdeal.Read.val_main_v47 (F := Ideal) x5 (ix1 0))
        + Ideal.pow (Cert.ReferenceIdeal.Read.val_main_v18 (F := Ideal) x1 x2 (ix1 ⟨R.val * 128 + l.val, by omega⟩)) (Cert.ReferenceIdeal.Read.val_main_v47 (F := Ideal) x5 (ix1 0)))
  (hzz : ∀ (R : Fin 50000) (l : Fin 128), (A2 : S50000x128.Idx → EReal) (ix2 R l)
      = maskedZZ (Cert.ReferenceIdeal.Read.val_main_v11 (F := Ideal) x1 x2 (ix1 ⟨R.val * 128 + l.val, by omega⟩)) (Cert.ReferenceIdeal.Read.val_main_v18 (F := Ideal) x1 x2 (ix1 ⟨R.val * 128 + l.val, by omega⟩))
          (Cert.ReferenceIdeal.Read.val_main_v73 (F := Ideal) x2 (ix1 ⟨R.val * 128 + l.val, by omega⟩)))
  (han : (A3 : S1.Idx → EReal) = Cert.ReferenceIdeal.Read.val_main_v48 (F := Ideal) x6)
  (hc : (A4 : S4x1.Idx → EReal) = Cert.ReferenceIdeal.Read.val_main_v49 (F := Ideal) x7)
  (he : (A5 : S4x1.Idx → EReal) = Cert.ReferenceIdeal.Read.val_main_v50 (F := Ideal) x8)

include hdr hadiv hzz han hc he

/-- The total over point `t`'s blocks of the per-edge energies is the block total of the plain formula's per-edge
    energies, for any arrays that hold the streams edge by edge: row `r`, lane `l` of the block is edge
    `(5000 t + r) · 128 + l`. -/
theorem block_total (t : Fin cfg0.N) :
    (∑ r : Fin 5000, ∑ l : Fin 128,
        edgeK (((cfg0.win 0).blk t).view.read (Elt Ideal) A0 (ix2 r l)) (((cfg0.win 1).blk t).view.read (Elt Ideal) A1 (ix2 r l))
          (((cfg0.win 2).blk t).view.read (Elt Ideal) A2 (ix2 r l)) (((cfg0.win 3).blk t).view.read (Elt Ideal) A3 (ix1 (0 : Fin 1)))
          ![((cfg0.win 4).blk t).view.read (Elt Ideal) A4 (ix2 (0 : Fin 4) (0 : Fin 1)), ((cfg0.win 4).blk t).view.read (Elt Ideal) A4 (ix2 (1 : Fin 4) (0 : Fin 1)),
            ((cfg0.win 4).blk t).view.read (Elt Ideal) A4 (ix2 (2 : Fin 4) (0 : Fin 1)), ((cfg0.win 4).blk t).view.read (Elt Ideal) A4 (ix2 (3 : Fin 4) (0 : Fin 1))]
          ![((cfg0.win 5).blk t).view.read (Elt Ideal) A5 (ix2 (0 : Fin 4) (0 : Fin 1)), ((cfg0.win 5).blk t).view.read (Elt Ideal) A5 (ix2 (1 : Fin 4) (0 : Fin 1)),
            ((cfg0.win 5).blk t).view.read (Elt Ideal) A5 (ix2 (2 : Fin 4) (0 : Fin 1)), ((cfg0.win 5).blk t).view.read (Elt Ideal) A5 (ix2 (3 : Fin 4) (0 : Fin 1))])
      = blockSum (edgeAt x0 x1 x2 x5 x6 x7 x8) t.val := by
  have hN : cfg0.N = 10 := N_0
  have ht : t.val < 10 := lt_of_lt_of_eq t.isLt hN
  unfold blockSum
  refine Finset.sum_congr rfl fun r _ => Finset.sum_congr rfl fun l _ => ?_
  have hr : r.val < 5000 := r.isLt
  have hl : l.val < 128 := l.isLt
  have hR : t.val * 5000 + r.val < 50000 := by omega
  have hn : (t.val * 5000 + r.val) * 128 + l.val < 6400000 := by omega
  refine (edgeK_congr
      ((read0_apply c t A0 r l hR).trans (hdr ⟨t.val * 5000 + r.val, hR⟩ l))
      ((read1_apply c t A1 r l hR).trans (hadiv ⟨t.val * 5000 + r.val, hR⟩ l))
      ((read2_apply c t A2 r l hR).trans (hzz ⟨t.val * 5000 + r.val, hR⟩ l))
      ((read3_apply c t A3).trans (congrFun han _))
      (vec4_congr ((read4_apply c t A4 (0 : Fin 4)).trans (congrFun hc _)) ((read4_apply c t A4 (1 : Fin 4)).trans (congrFun hc _))
        ((read4_apply c t A4 (2 : Fin 4)).trans (congrFun hc _)) ((read4_apply c t A4 (3 : Fin 4)).trans (congrFun hc _)))
      (vec4_congr ((read5_apply c t A5 (0 : Fin 4)).trans (congrFun he _)) ((read5_apply c t A5 (1 : Fin 4)).trans (congrFun he _))
        ((read5_apply c t A5 (2 : Fin 4)).trans (congrFun he _)) ((read5_apply c t A5 (3 : Fin 4)).trans (congrFun he _)))).trans ?_
  exact edgeK_read_eq_edgeAt x0 x1 x2 x5 x6 x7 x8 ((t.val * 5000 + r.val) * 128 + l.val) hn

end Generic

variable (m : (ℓ : Loc nD τ sig) → Buf (Elt Ideal) ℓ) (c : Dev nD)
  (hdr : ∀ (R : Fin 50000) (l : Fin 128), (V m c main_v62 : S50000x128.Idx → EReal) (ix2 R l)
      = Cert.ReferenceIdeal.Read.val_main_v36 (F := Ideal) x0 x2 (ix1 ⟨R.val * 128 + l.val, by omega⟩))
  (hadiv : ∀ (R : Fin 50000) (l : Fin 128), (V m c main_v63 : S50000x128.Idx → EReal) (ix2 R l)
      = Ideal.pow (Cert.ReferenceIdeal.Read.val_main_v11 (F := Ideal) x1 x2 (ix1 ⟨R.val * 128 + l.val, by omega⟩)) (Cert.ReferenceIdeal.Read.val_main_v47 (F := Ideal) x5 (ix1 0))
        + Ideal.pow (Cert.ReferenceIdeal.Read.val_main_v18 (F := Ideal) x1 x2 (ix1 ⟨R.val * 128 + l.val, by omega⟩)) (Cert.ReferenceIdeal.Read.val_main_v47 (F := Ideal) x5 (ix1 0)))
  (hzz : ∀ (R : Fin 50000) (l : Fin 128), (V m c main_v64 : S50000x128.Idx → EReal) (ix2 R l)
      = maskedZZ (Cert.ReferenceIdeal.Read.val_main_v11 (F := Ideal) x1 x2 (ix1 ⟨R.val * 128 + l.val, by omega⟩)) (Cert.ReferenceIdeal.Read.val_main_v18 (F := Ideal) x1 x2 (ix1 ⟨R.val * 128 + l.val, by omega⟩))
          (Cert.ReferenceIdeal.Read.val_main_v73 (F := Ideal) x2 (ix1 ⟨R.val * 128 + l.val, by omega⟩)))
  (han : V m c main_v6 = Cert.ReferenceIdeal.Read.val_main_v48 (F := Ideal) x6)
  (hc : V m c main_v7 = Cert.ReferenceIdeal.Read.val_main_v49 (F := Ideal) x7)
  (he : V m c main_v8 = Cert.ReferenceIdeal.Read.val_main_v50 (F := Ideal) x8)

include hdr hadiv hzz han hc he

/-- A point's total over the blocks the region finds is the block total of the per-edge energies. -/
theorem point_total (t : Fin cfg0.N) :
    (∑ r : Fin 5000, ∑ l : Fin 128,
        edgeK (iblk (F := Ideal) m c 0 t (ix2 r l)) (iblk (F := Ideal) m c 1 t (ix2 r l)) (iblk (F := Ideal) m c 2 t (ix2 r l))
          (iblk (F := Ideal) m c 3 t (ix1 (0 : Fin 1)))
          ![iblk (F := Ideal) m c 4 t (ix2 (0 : Fin 4) (0 : Fin 1)), iblk (F := Ideal) m c 4 t (ix2 (1 : Fin 4) (0 : Fin 1)), iblk (F := Ideal) m c 4 t (ix2 (2 : Fin 4) (0 : Fin 1)), iblk (F := Ideal) m c 4 t (ix2 (3 : Fin 4) (0 : Fin 1))]
          ![iblk (F := Ideal) m c 5 t (ix2 (0 : Fin 4) (0 : Fin 1)), iblk (F := Ideal) m c 5 t (ix2 (1 : Fin 4) (0 : Fin 1)), iblk (F := Ideal) m c 5 t (ix2 (2 : Fin 4) (0 : Fin 1)), iblk (F := Ideal) m c 5 t (ix2 (3 : Fin 4) (0 : Fin 1))])
      = blockSum (edgeAt x0 x1 x2 x5 x6 x7 x8) t.val :=
  block_total x0 x1 x2 x5 x6 x7 x8 c (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5)) hdr hadiv hzz han hc he t

/-- The scratch cell after point `n` is the running accumulator of the per-edge energies after block `n`, started from
    zero: by induction on the point, the cell being reset at every fifth point exactly where the accumulator is. -/
theorem acc_eq_runSum_of : ∀ (n : ℕ) (h : n < cfg0.N) (y : S1x1.Idx),
    acc (F := Ideal) m c n h y = runSum (edgeAt x0 x1 x2 x5 x6 x7 x8) (Ideal.ofBits .f32 0x00000000#32) n
  | 0, h, y => by
    show step (F := Ideal) (iblk m c 0 ⟨0, h⟩) (iblk m c 1 ⟨0, h⟩) (iblk m c 2 ⟨0, h⟩) (iblk m c 3 ⟨0, h⟩) (iblk m c 4 ⟨0, h⟩)
        (iblk m c 5 ⟨0, h⟩) (k0_pay3 (F := Ideal)) y
      = Ideal.ofBits .f32 0x00000000#32 + blockSum (edgeAt x0 x1 x2 x5 x6 x7 x8) 0
    refine (step_apply _ _ _ _ _ _ _ y).trans ?_
    refine congr (congrArg _ (pay3_apply y)) ?_
    exact point_total x0 x1 x2 x5 x6 x7 x8 m c hdr hadiv hzz han hc he ⟨0, h⟩
  | n + 1, h, y => by
    rw [acc_succ]
    show _ = (if (n + 1) % 5 = 0 then Ideal.ofBits .f32 0x00000000#32 else runSum (edgeAt x0 x1 x2 x5 x6 x7 x8) (Ideal.ofBits .f32 0x00000000#32) n)
      + blockSum (edgeAt x0 x1 x2 x5 x6 x7 x8) (n + 1)
    refine (step_apply _ _ _ _ _ _ _ y).trans ?_
    refine congr (congrArg _ ?_) (point_total x0 x1 x2 x5 x6 x7 x8 m c hdr hadiv hzz han hc he ⟨n + 1, h⟩)
    by_cases h0 : (n + 1) % 5 = 0
    · rw [if_pos h0, if_pos h0]
      exact pay3_apply y
    · rw [if_neg h0, if_neg h0]
      exact acc_eq_runSum_of n (Nat.lt_of_succ_lt h) y

end Total

/-- The scratch cell after point `n`, over the arrays the program was launched with: the running accumulator of the
    per-edge energies after block `n`, started from zero. -/
theorem acc_eq_runSum (m : (ℓ : Loc Cert.KernelIdeal.nD Cert.KernelIdeal.τ Cert.KernelIdeal.sig) → Buf (Elt Ideal) ℓ) (c : Dev Cert.KernelIdeal.nD) :
    ∀ (n : ℕ) (h : n < Cert.KernelIdeal.cfg0.N) (y : Cert.KernelIdeal.S1x1.Idx),
      Cert.KernelIdeal.RegionValue.acc (F := Ideal) m c n h y
        = runSum (edgeAt (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))
            (m ((c.tc : Thread Cert.KernelIdeal.nD Cert.KernelIdeal.τ).loc Cert.KernelIdeal.main_arg8)))
          (Ideal.ofBits .f32 0x00000000#32) n :=
  acc_eq_runSum_of _ _ _ _ _ _ _ m c (V_dr m c) (V_adiv m c) (V_zz m c) (V_an m c) (V_c m c) (V_e m c)

end Cert.ZBL

end
-- ==== Proof.SumLaw.lean ====
/-
  The two running accumulators together hold the sum over all edges.

  The edges `0 … 6399999` are laid out as ten blocks of `5000` rows of `128` lanes, edge `(5000 t + r) · 128 + l` at
  block `t`, row `r`, lane `l`. A sum over `Fin (m * n)` of a function of the index's value is the iterated sum over
  `Fin m` and `Fin n` at `i * n + j` (the bijection `(i, j) ↦ i * n + j`); applied twice (`6400000 = 50000 · 128` and
  `50000 = 10 · 5000`) the sum over all edges is the sum of the ten block totals. The accumulator is restarted at blocks
  `0` and `5`, so after block `4` it holds blocks `0 … 4` and after block `9` it holds blocks `5 … 9`; started from
  zero, the two add up to all ten. Only commutativity and associativity of `+` are used.
-/
import proofs.«159565_j59622736003517_2_alg».proof.Proof.Spec

noncomputable section

namespace Cert.ZBL

open Idealize.ShloMosaic

/-- A sum over `Fin (m * n)` of a function of the index's value is the iterated sum at `i * n + j`: every number below
    `m * n` is `i * n + j` for exactly one pair `i < m`, `j < n`. -/
theorem sum_fin_mul {M : Type*} [AddCommMonoid M] (m n : ℕ) (g : ℕ → M) :
    ∑ e : Fin (m * n), g e.val = ∑ i : Fin m, ∑ j : Fin n, g (i.val * n + j.val) :=
  calc ∑ e : Fin (m * n), g e.val
      = ∑ p : Fin m × Fin n, g (finProdFinEquiv p).val :=
        (Equiv.sum_comp finProdFinEquiv (fun e : Fin (m * n) => g e.val)).symm
    _ = ∑ i : Fin m, ∑ j : Fin n, g (finProdFinEquiv (i, j)).val := Fintype.sum_prod_type _
    _ = ∑ i : Fin m, ∑ j : Fin n, g (i.val * n + j.val) := by
        refine Finset.sum_congr rfl fun i _ => Finset.sum_congr rfl fun j _ => ?_
        congr 1
        simp only [finProdFinEquiv_apply_val]
        rw [Nat.add_comm, Nat.mul_comm]

/-- The same with the bound given as a number known to be the product. -/
theorem sum_fin_of_eq {M : Type*} [AddCommMonoid M] {N : ℕ} (m n : ℕ) (h : N = m * n) (g : ℕ → M) :
    ∑ e : Fin N, g e.val = ∑ i : Fin m, ∑ j : Fin n, g (i.val * n + j.val) := by
  subst h
  exact sum_fin_mul m n g

/-- The sum over all edges is the sum of the ten block totals. -/
theorem total_eq_blocks (g : ℕ → EReal) :
    ∑ e : Fin 6400000, g e.val = ∑ t : Fin 10, blockSum g t.val := by
  rw [sum_fin_of_eq 50000 128 (by norm_num) g,
    sum_fin_of_eq 10 5000 (by norm_num) (fun i => ∑ l : Fin 128, g (i * 128 + l.val))]
  rfl

/-- The accumulator after block `4`: the start value and blocks `0 … 4`, added left to right. -/
theorem runSum_four (g : ℕ → EReal) (z : EReal) :
    runSum g z 4 = ((((z + blockSum g 0) + blockSum g 1) + blockSum g 2) + blockSum g 3) + blockSum g 4 := by
  simp [runSum]

/-- The accumulator after block `9`: restarted at block `5`, so the start value and blocks `5 … 9`. -/
theorem runSum_nine (g : ℕ → EReal) (z : EReal) :
    runSum g z 9 = ((((z + blockSum g 5) + blockSum g 6) + blockSum g 7) + blockSum g 8) + blockSum g 9 := by
  simp [runSum]

/-- Started from zero, the accumulator after block `4` plus the accumulator after block `9` is the sum over all edges. -/
theorem runSum_total (g : ℕ → EReal) (z : EReal) (hz : z = 0) :
    runSum g z 4 + runSum g z 9 = ∑ e : Fin 6400000, g e.val := by
  subst hz
  rw [total_eq_blocks, runSum_four, runSum_nine, Fin.sum_univ_eq_sum_range (fun t => blockSum g t) 10]
  simp only [Finset.sum_range_succ, Finset.sum_range_zero, zero_add, add_assoc]

end Cert.ZBL

end
-- ==== Proof.KValue.lean ====
/-
  The kernel program's result is the specification's value.

  The result buffer after the host tail is the closing scale of the two halves' running totals; each running total is
  the ordered sum of its five block totals of per-edge energies (the streams the region reads being the shared host
  quantities, and the kernel's per-edge spelling agreeing with the plain formula's); the ten block totals add up to the
  sum over all edges.
-/
import proofs.«159565_j59622736003517_2_alg».proof.Proof.KTail
import proofs.«159565_j59622736003517_2_alg».proof.Proof.KRun
import proofs.«159565_j59622736003517_2_alg».proof.Proof.KSum
import proofs.«159565_j59622736003517_2_alg».proof.Proof.KPrologue
import proofs.«159565_j59622736003517_2_alg».proof.Proof.SumLaw

noncomputable section

open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen

variable (m : (ℓ : Loc nD τ sig) → Buf (Elt Ideal) ℓ) (ρ : Dev nD → PrngReg)

/-- The result buffer after the tail is the specification's value of the argument arrays. -/
theorem kernel_result (c : Dev nD) (i : S_.Idx) :
    (Pipeline.afterTail₀ cfgs (dats m) 0 (V0 m) [hostOps1] c main_v73 : S_.Idx → EReal) i
      = Cert.ZBL.result (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [tail_value, Cert.ZBL.acc_eq_runSum m c 4 lt4, Cert.ZBL.acc_eq_runSum m c 9 lt9,
    Cert.ZBL.runSum_total _ _ Ideal.ofBits_zero_f32, Cert.ZBL.V_rs]
  rfl

/-- The run with the result at the specification's value, the arguments unchanged. -/
theorem run_value : θ_run defs (onTc (τ := τ) (main (F := Ideal))) ⟨m, fun _ => 0, ρ⟩ (fun r => ∀ c : Dev nD,
      r.2.mem ((c.tc : Thread nD τ).loc main_v73)
        = (fun _ => Cert.ZBL.result (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (funext fun i => kernel_result m c i), (h c).2⟩) (run_tail m ρ)

end Cert.KernelIdeal.RegionValue

end
-- ==== Proof.RefValue.lean ====
/-
  The reference program's result, read index by index, is the shared value `result`.

  The reference ends with `0 + Σ_j ((0.5 · rs j) · 14.3996) · (0 + Σ_e E e)` over the one entry `j` of the softplus'd
  scale `rs`, where `E e` is the masked energy of edge `e`. Reading `E e` stage by stage gives the plain formula's
  per-edge energy `edgeR` of the shared quantities (distance, the two gathered charges, the bit "the endpoints
  differ", and the five softplus'd scalars): the clip is the clamp into `[0.02, 6]`; the cutoff is
  `0.5 · (cos(π d / 6) + 1)`; the scaled distance is `d · (zi^ae + zj^ae) / an`; the screening function is
  `0 + Σ_k c_k · exp(-e_k · dist)` over the four rows; the energy is `((zi zj / d) · screening) · cutoff` times the
  mask bit read as a number. Each broadcast reads its operand at the evident coordinates (a one-entry array at `0`,
  a four-entry column at `(k, 0)`, a per-edge stream at `e`). The total over the one-axis index set of the edges is
  re-indexed by the edge number `e < 6400000`.
-/
import proofs.«159565_j59622736003517_2_alg».proof.Proof.Shared

noncomputable section

open scoped BigOperators

namespace Cert.ZBL

open Idealize.ShloMosaic Idealize.ShloMosaic.ValueIdx Cert.ReferenceIdeal Cert.ReferenceIdeal.Read

/-! ## Sums over a one-axis index set -/

/-- A one-axis index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-! ## The broadcasts' coordinates -/

/-- Broadcasting a one-entry array along the edges reads its entry `0` (the charge exponent, first use). -/
theorem idx52 (e : Fin 6400000) : idx_main_v52 (ix1 e) = ix1 (0 : Fin 1) :=
  funext fun a => Fin.ext (by match a with | ⟨0, _⟩ => rfl)
/-- The same for the charge exponent's second use. -/
theorem idx54 (e : Fin 6400000) : idx_main_v54 (ix1 e) = ix1 (0 : Fin 1) :=
  funext fun a => Fin.ext (by match a with | ⟨0, _⟩ => rfl)
/-- The same for the length scale. -/
theorem idx58 (e : Fin 6400000) : idx_main_v58 (ix1 e) = ix1 (0 : Fin 1) :=
  funext fun a => Fin.ext (by match a with | ⟨0, _⟩ => rfl)
/-- Entry `(k, e)` of the per-edge stream broadcast along the four rows is the stream's entry `e`. -/
theorem idx61 (e : Fin 6400000) (k : Fin 4) : idx_main_v61 (idx_main_v63 (idx_main_v68 (ix1 e) k)) = ix1 e :=
  funext fun a => Fin.ext (by match a with | ⟨0, _⟩ => rfl)
/-- Entry `(k, e)` of a four-entry column broadcast along the edges is the column's entry `(k, 0)` (the exponents). -/
theorem idx62 (e : Fin 6400000) (k : Fin 4) : idx_main_v62 (idx_main_v68 (ix1 e) k) = ix2 k (0 : Fin 1) :=
  funext fun a => Fin.ext (by match a with | ⟨0, _⟩ => rfl | ⟨1, _⟩ => rfl)
/-- The same for the coefficients. -/
theorem idx66 (e : Fin 6400000) (k : Fin 4) : idx_main_v66 (idx_main_v68 (ix1 e) k) = ix2 k (0 : Fin 1) :=
  funext fun a => Fin.ext (by match a with | ⟨0, _⟩ => rfl | ⟨1, _⟩ => rfl)

/-! ## The stages of one edge -/

/-- The clip stage at edge `e` is the distance clamped into `[0.02, 6]`. -/
theorem v37_value (x0 : (⟨S100000x3, .f32⟩ : BufTy).Contents (Elt Ideal)) (x2 : (⟨S2x6400000, .i32⟩ : BufTy).Contents (Elt Ideal)) (e : Fin 6400000) :
    val_main_v37 (F := Ideal) x0 x2 (ix1 e) = clampR (val_main_v36 (F := Ideal) x0 x2 (ix1 e)) := by
  unfold clampR
  rw [val_main_v37_apply, val_main_call0_v4_apply, val_main_call0_v3_apply, val_main_cst_8_apply,
    val_main_call0_v2_apply, val_main_call0_v1_apply, val_main_call0_v0_apply, val_main_cst_7_apply]
  generalize val_main_v36 (F := Ideal) x0 x2 (ix1 e) = dr
  rfl

/-- The cutoff stage at edge `e`: `0.5 · (cos(π d / 6) + 1)` of the clamped distance `d`. -/
theorem v46_value (x0 : (⟨S100000x3, .f32⟩ : BufTy).Contents (Elt Ideal)) (x2 : (⟨S2x6400000, .i32⟩ : BufTy).Contents (Elt Ideal)) (e : Fin 6400000) :
    val_main_v46 (F := Ideal) x0 x2 (ix1 e)
      = Ideal.ofBits .f32 0x3F000000#32
        * (Ideal.cos (Ideal.div (Ideal.ofBits .f32 0x40490FDB#32 * clampR (val_main_v36 (F := Ideal) x0 x2 (ix1 e)))
              (Ideal.ofBits .f32 0x40C00000#32))
            + Ideal.ofBits .f32 0x3F800000#32) := by
  rw [val_main_v46_apply, val_main_v45_apply, val_main_cst_12_apply, val_main_v44_apply, val_main_v42_apply,
    val_main_v41_apply, val_main_v39_apply, val_main_v38_apply, val_main_cst_9_apply, v37_value,
    val_main_v40_apply, val_main_cst_10_apply, val_main_v43_apply, val_main_cst_11_apply]
  generalize clampR (val_main_v36 (F := Ideal) x0 x2 (ix1 e)) = d
  rfl

/-- The scaled distance at edge `e`: `d · (zi^ae + zj^ae) / an`. -/
theorem v59_value (x0 : (⟨S100000x3, .f32⟩ : BufTy).Contents (Elt Ideal)) (x1 : (⟨S100000, .i32⟩ : BufTy).Contents (Elt Ideal))
    (x2 : (⟨S2x6400000, .i32⟩ : BufTy).Contents (Elt Ideal)) (x5 x6 : (⟨S1, .f32⟩ : BufTy).Contents (Elt Ideal)) (e : Fin 6400000) :
    val_main_v59 (F := Ideal) x0 x1 x2 x5 x6 (ix1 e)
      = Ideal.div (clampR (val_main_v36 (F := Ideal) x0 x2 (ix1 e))
          * (Ideal.pow (val_main_v11 (F := Ideal) x1 x2 (ix1 e)) (val_main_v47 (F := Ideal) x5 (ix1 0))
            + Ideal.pow (val_main_v18 (F := Ideal) x1 x2 (ix1 e)) (val_main_v47 (F := Ideal) x5 (ix1 0))))
          (val_main_v48 (F := Ideal) x6 (ix1 0)) := by
  rw [val_main_v59_apply, val_main_v57_apply, v37_value, val_main_v56_apply, val_main_v53_apply, val_main_v52_apply,
    idx52, val_main_v55_apply, val_main_v54_apply, idx54, val_main_v58_apply, idx58]
  generalize clampR (val_main_v36 (F := Ideal) x0 x2 (ix1 e)) = d
  generalize val_main_v11 (F := Ideal) x1 x2 (ix1 e) = zi
  generalize val_main_v18 (F := Ideal) x1 x2 (ix1 e) = zj
  generalize val_main_v47 (F := Ideal) x5 (ix1 0) = ae
  generalize val_main_v48 (F := Ideal) x6 (ix1 0) = an
  rfl

/-- The screening function at edge `e`: `0 + Σ_k c_k · exp(-e_k · dist)` over the four terms. -/
theorem v68_value (x0 : (⟨S100000x3, .f32⟩ : BufTy).Contents (Elt Ideal)) (x1 : (⟨S100000, .i32⟩ : BufTy).Contents (Elt Ideal))
    (x2 : (⟨S2x6400000, .i32⟩ : BufTy).Contents (Elt Ideal)) (x5 x6 : (⟨S1, .f32⟩ : BufTy).Contents (Elt Ideal))
    (x7 x8 : (⟨S4x1, .f32⟩ : BufTy).Contents (Elt Ideal)) (e : Fin 6400000) :
    val_main_v68 (F := Ideal) x0 x1 x2 x5 x6 x7 x8 (ix1 e)
      = Ideal.ofBits .f32 0x00000000#32
        + ∑ k : Fin 4, val_main_v49 (F := Ideal) x7 (ix2 k 0)
            * Ideal.exp (-(val_main_v50 (F := Ideal) x8 (ix2 k 0))
                * Ideal.div (clampR (val_main_v36 (F := Ideal) x0 x2 (ix1 e))
                    * (Ideal.pow (val_main_v11 (F := Ideal) x1 x2 (ix1 e)) (val_main_v47 (F := Ideal) x5 (ix1 0))
                      + Ideal.pow (val_main_v18 (F := Ideal) x1 x2 (ix1 e)) (val_main_v47 (F := Ideal) x5 (ix1 0))))
                    (val_main_v48 (F := Ideal) x6 (ix1 0))) := by
  rw [val_main_v68_apply, val_main_cst_13_apply]
  refine congrArg (Ideal.ofBits .f32 0x00000000#32 + ·) (Finset.sum_congr rfl fun k _ => ?_)
  rw [val_main_v67_apply, val_main_v66_apply, idx66, val_main_v65_apply, val_main_v64_apply, val_main_v62_apply, idx62,
    val_main_v60_apply, val_main_v63_apply, val_main_v61_apply, idx61, v59_value]
  generalize Ideal.div _ _ = dist
  generalize val_main_v49 (F := Ideal) x7 (ix2 k 0) = ck
  generalize val_main_v50 (F := Ideal) x8 (ix2 k 0) = ek
  rfl

/-- The reference's masked energy stage at edge `e` is the plain formula's per-edge energy of the shared quantities:
    `((zi zj / d) · screening) · cutoff`, times the bit "the endpoints differ" read as `0` or `1`. -/
theorem edge_value (x0 : (⟨S100000x3, .f32⟩ : BufTy).Contents (Elt Ideal)) (x1 : (⟨S100000, .i32⟩ : BufTy).Contents (Elt Ideal))
    (x2 : (⟨S2x6400000, .i32⟩ : BufTy).Contents (Elt Ideal)) (x5 x6 : (⟨S1, .f32⟩ : BufTy).Contents (Elt Ideal))
    (x7 x8 : (⟨S4x1, .f32⟩ : BufTy).Contents (Elt Ideal)) (e : Fin 6400000) :
    val_main_v79 (F := Ideal) x0 x1 x2 x5 x6 x7 x8 (ix1 e)
      = edgeR (val_main_v36 (F := Ideal) x0 x2 (ix1 e)) (val_main_v11 (F := Ideal) x1 x2 (ix1 e))
          (val_main_v18 (F := Ideal) x1 x2 (ix1 e)) (val_main_v47 (F := Ideal) x5 (ix1 0)) (val_main_v48 (F := Ideal) x6 (ix1 0))
          (fun k => val_main_v49 (F := Ideal) x7 (ix2 k 0)) (fun k => val_main_v50 (F := Ideal) x8 (ix2 k 0))
          (val_main_v73 (F := Ideal) x2 (ix1 e)) := by
  unfold edgeR
  rw [val_main_v79_apply, val_main_v72_apply, val_main_v71_apply, val_main_v70_apply, val_main_v69_apply, v37_value,
    v68_value, v46_value, val_main_v74_apply]
  generalize clampR (val_main_v36 (F := Ideal) x0 x2 (ix1 e)) = d
  generalize val_main_v11 (F := Ideal) x1 x2 (ix1 e) = zi
  generalize val_main_v18 (F := Ideal) x1 x2 (ix1 e) = zj
  generalize val_main_v73 (F := Ideal) x2 (ix1 e) = ne
  rfl

/-! ## The result -/

/-- THE REFERENCE'S RESULT: the closing scale `0.5 · softplus(rs) · 14.3996` times the total over all edges of the
    per-edge energy, summed over its one entry — the shared value `result`. The total over the one-axis index set of
    the edges is re-indexed by the edge number. -/
theorem ref_value (x0 : (⟨S100000x3, .f32⟩ : BufTy).Contents (Elt Ideal)) (x1 : (⟨S100000, .i32⟩ : BufTy).Contents (Elt Ideal))
    (x2 : (⟨S2x6400000, .i32⟩ : BufTy).Contents (Elt Ideal)) (x5 x6 : (⟨S1, .f32⟩ : BufTy).Contents (Elt Ideal))
    (x7 x8 : (⟨S4x1, .f32⟩ : BufTy).Contents (Elt Ideal)) (x9 : (⟨S1, .f32⟩ : BufTy).Contents (Elt Ideal)) (i : S_.Idx) :
    val_main_v83 (F := Ideal) x0 x1 x2 x5 x6 x7 x8 x9 i = result x0 x1 x2 x5 x6 x7 x8 x9 := by
  unfold result finalOf
  rw [val_main_v83_apply, val_main_cst_17_apply]
  refine congrArg (Ideal.ofBits .f32 0x00000000#32 + ·) (Finset.sum_congr rfl fun j _ => ?_)
  rw [val_main_v82_apply, val_main_v78_apply, val_main_v76_apply, val_main_v75_apply, val_main_cst_14_apply,
    val_main_v77_apply, val_main_cst_15_apply, val_main_v81_apply, val_main_v80_apply, val_main_cst_16_apply, sum_idx1]
  have hsum : (∑ a : Fin 6400000, val_main_v79 (F := Ideal) x0 x1 x2 x5 x6 x7 x8 (ix1 a))
      = ∑ e : Fin 6400000, edgeAt x0 x1 x2 x5 x6 x7 x8 e.val :=
    Finset.sum_congr rfl fun e _ => by
      rw [edge_value]
      unfold edgeAt
      rw [dif_pos e.isLt]
  rw [hsum]
  generalize (∑ e : Fin 6400000, edgeAt x0 x1 x2 x5 x6 x7 x8 e.val) = tot
  generalize val_main_v51 (F := Ideal) x9 j = rs
  rfl

end Cert.ZBL

end
-- ==== Proof.lean ====
/-
  The certificate: the pairwise repulsion energy computed by a blocked accumulation over the edge list equals the
  plain formula's sum over all edges.

  Both programs gather, for every edge, the two endpoints' positions and charges, take the distance, and evaluate the
  same screened potential with the same softplus-transformed parameters. The kernel program precombines three
  per-edge streams on the host (distance; the sum of the two charge powers, the power taken per atom before the
  gather; the charge product with the self-edge mask folded in), reshapes them to 50000 rows of 128 edges, and
  accumulates, over two halves of five blocks of 5000 rows each, the block totals of the per-edge energies into a
  scratch cell; the two halves' totals are written to two entries of a small output array, which the host sums and
  scales. The reference evaluates the formula edge by edge, masks, sums and scales.

  On the extended reals the two per-edge spellings agree at every input (the folded constant is exactly the
  reference's pi-literal divided by six; a self edge gives zero on both sides because the clamped distance is
  positive), and a finite sum does not depend on grouping or order; so no finiteness of the inputs is used.
  The three frames are the generated runs; the ideal pass rewrote nothing.
-/
import proofs.«159565_j59622736003517_2_alg».proof.Defs
import proofs.«159565_j59622736003517_2_alg».proof.Proof.Gen.Kernel.Frame
import proofs.«159565_j59622736003517_2_alg».proof.Proof.Gen.KernelIdeal.Frame
import proofs.«159565_j59622736003517_2_alg».proof.Proof.Gen.ReferenceIdeal.Run
import proofs.«159565_j59622736003517_2_alg».proof.Proof.Gen.ReferenceIdeal.Read
import proofs.«159565_j59622736003517_2_alg».proof.Proof.Gen.Pre_finite_inputs
import proofs.«159565_j59622736003517_2_alg».proof.Proof.KValue
import proofs.«159565_j59622736003517_2_alg».proof.Proof.RefValue

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the specification's value of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (fun _ => Cert.ZBL.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))),
    Cert.KernelIdeal.RegionValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v83_eq]
  funext i
  rw [Cert.ZBL.ref_value, (hagree c).1, (hagree c).2.1, (hagree c).2.2.1, (hagree c).2.2.2.2.2.1, (hagree c).2.2.2.2.2.2.1,
    (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
